-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg6 : FVec F S128x10 .f32) (main_arg7 : FVec F S10 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S128x10 .f32 := Host.absf main_arg6
  let main_cst_6 : FVec F S_ .f32 := constant S_ .f32 0x7F800000#32
  let main_v20 : FVec F S128x10 .f32 := broadcastInDim S128x10 ![] bcast_S_S128x10 main_cst_6
  let main_v21 : IVec S128x10 1 := cmpf .olt main_v19 main_v20
  let main_c_7 : IVec S_ 1 := constantI S_ 1 1#1
  let main_v22 : IVec S_ 1 := (fun x v => Host.reduce IntOp.andi x v reducesTo_S128x10_S_d0_1 h_S_) main_v21 main_c_7
  let main_v23 : IVec S_ 1 := andi main_v18 main_v22
  let main_v24 : FVec F S10 .f32 := Host.absf main_arg7
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : IVec S100000 32) (main_arg3 : FVec F S3x128x128 .f32) (main_arg4 : FVec F S3x128x128 .f32) (main_arg5 : FVec F S3x128 .f32) (main_arg6 : FVec F S128x10 .f32) (main_arg7 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S10000x128 : Shape := ⟨2, ![10000, 128]⟩
abbrev S64 : Shape := ⟨1, ![64]⟩
abbrev S100000x1 : Shape := ⟨2, ![100000, 1]⟩
abbrev S64x128 : Shape := ⟨2, ![64, 128]⟩
abbrev S64x1 : Shape := ⟨2, ![64, 1]⟩
abbrev S64x10 : Shape := ⟨2, ![64, 10]⟩
abbrev S1x10 : Shape := ⟨2, ![1, 10]⟩

abbrev nBuf : Space → Nat
  | .hbm => 89
  | .vmem => 31
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S3x128x128, .f32⟩
  | .hbm, ⟨4, _⟩ => ⟨S3x128x128, .f32⟩
  | .hbm, ⟨5, _⟩ => ⟨S3x128, .f32⟩
  | .hbm, ⟨6, _⟩ => ⟨S128x10, .f32⟩
  | .hbm, ⟨7, _⟩ => ⟨S10, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128x128, .f32⟩
  | .hbm, ⟨26, _⟩ => ⟨S128x128, .f32⟩
  | .hbm, ⟨27, _⟩ => ⟨S1x128x128, .f32⟩
  | .hbm, ⟨28, _⟩ => ⟨S128x128, .f32⟩
  | .hbm, ⟨29, _⟩ => ⟨S1x128, .f32⟩
  | .hbm, ⟨30, _⟩ => ⟨S128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S_, .f32⟩
  | .hbm, ⟨42, _⟩ => ⟨S100000x128, .f32⟩
  | .hbm, ⟨43, _⟩ => ⟨S1600000x1, .i32⟩
  | .hbm, ⟨44, _⟩ => ⟨S100000x128, .f32⟩
  | .hbm, ⟨45, _⟩ => ⟨S1x128x128, .f32⟩
  | .hbm, ⟨46, _⟩ => ⟨S128x128, .f32⟩
  | .hbm, ⟨47, _⟩ => ⟨S1x128x128, .f32⟩
  | .hbm, ⟨48, _⟩ => ⟨S128x128, .f32⟩
  | .hbm, ⟨49, _⟩ => ⟨S1x128, .f32⟩
  | .hbm, ⟨50, _⟩ => ⟨S128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S1x128x128, .f32⟩
  | .hbm, ⟨66, _⟩ => ⟨S128x128, .f32⟩
  | .hbm, ⟨67, _⟩ => ⟨S1x128x128, .f32⟩
  | .hbm, ⟨68, _⟩ => ⟨S128x128, .f32⟩
  | .hbm, ⟨69, _⟩ => ⟨S1x128, .f32⟩
  | .hbm, ⟨70, _⟩ => ⟨S128, .f32⟩
  | .hbm, ⟨71, _⟩ => ⟨S100000x128, .f32⟩
  | .hbm, ⟨72, _⟩ => ⟨S_, .f32⟩
  | .hbm, ⟨73, _⟩ => ⟨S100000, .f32⟩
  | .hbm, ⟨74, _⟩ => ⟨S_, .f32⟩
  | .hbm, ⟨75, _⟩ => ⟨S64, .f32⟩
  | .hbm, ⟨76, _⟩ => ⟨S100000x1, .i32⟩
  | .hbm, ⟨77, _⟩ => ⟨S64, .f32⟩
  | .hbm, ⟨78, _⟩ => ⟨S_, .f32⟩
  | .hbm, ⟨79, _⟩ => ⟨S64x128, .f32⟩
  | .hbm, ⟨80, _⟩ => ⟨S100000x1, .i32⟩
  | .hbm, ⟨81, _⟩ => ⟨S64x128, .f32⟩
  | .hbm, ⟨82, _⟩ => ⟨S_, .f32⟩
  | .hbm, ⟨83, _⟩ => ⟨S64, .f32⟩
  | .hbm, ⟨84, _⟩ => ⟨S64, .f32⟩
  | .hbm, ⟨85, _⟩ => ⟨S64x1, .f32⟩
  | .hbm, ⟨86, _⟩ => ⟨S64x128, .f32⟩
  | .hbm, ⟨87, _⟩ => ⟨S64x128, .f32⟩
  | .hbm, ⟨88, _⟩ => ⟨S64x10, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x128, .f32⟩
  | .local _ .vmem, ⟨14, _⟩ => ⟨S128x128, .f32⟩
  | .local _ .vmem, ⟨15, _⟩ => ⟨S128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x128, .f32⟩
  | .local _ .vmem, ⟨23, _⟩ => ⟨S128x128, .f32⟩
  | .local _ .vmem, ⟨24, _⟩ => ⟨S128, .f32⟩
  | .local _ .vmem, ⟨25, _⟩ => ⟨S10000x128, .f32⟩
  | .local _ .vmem, ⟨26, _⟩ => ⟨S10000x128, .f32⟩
  | .local _ .vmem, ⟨27, _⟩ => ⟨S64x128, .f32⟩
  | .local _ .vmem, ⟨28, _⟩ => ⟨S128x10, .f32⟩
  | .local _ .vmem, ⟨29, _⟩ => ⟨S10, .f32⟩
  | .local _ .vmem, ⟨30, _⟩ => ⟨S64x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_1 : Ref sig .tc := ⟨.hbm, 32, rfl⟩
abbrev main_v21 : Ref sig .tc := ⟨.hbm, 33, rfl⟩
abbrev main_v22 : Ref sig .tc := ⟨.hbm, 34, rfl⟩
abbrev main_c_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_3 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_c_4 : Ref sig .tc := ⟨.hbm, 52, rfl⟩
abbrev main_v38 : Ref sig .tc := ⟨.hbm, 53, rfl⟩
abbrev main_v39 : Ref sig .tc := ⟨.hbm, 54, rfl⟩
abbrev main_c_5 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_cst_8 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_9 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem1_0 : DmaSem sig := 28
abbrev cc3_sem2_0 : DmaSem sig := 29
abbrev cc3_sem3_0 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x128 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x10 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S10 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x10 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S10000x128 : S1x128.Broadcasts S10000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S100000 : S_.BroadcastsInDim S100000 (![] : Fin 0 → Fin S100000.rank)
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x10_S128x10_0_0 : ∀ a, (![0, 0] : Fin 2 → Nat) a + S128x10.size a ≤ S128x10.size a
  h_S128x10 : 0 < S128x10.numel
  inb_S10_S10_0 : ∀ a, (![0] : Fin 1 → Nat) a + S10.size a ≤ S10.size a
  h_S10 : 0 < S10.numel
  shapeCasts_S10_S1x10 : S10.ShapeCasts S1x10
  broadcasts_S1x10_S64x10 : S1x10.Broadcasts S64x10
  reduces_S64x10_S64 : S64x10.Reduces [1] S64
  shapeCasts_S64_S64x1 : S64.ShapeCasts S64x1
  broadcasts_S64x1_S64x10 : S64x1.Broadcasts S64x10
  inb_S64x10_S64x10_0_0 : ∀ a, (![0, 0] : Fin 2 → Nat) a + S64x10.size a ≤ S64x10.size a
  h_S64x10 : 0 < S64x10.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x10_S64x10_1_0_0_1_n_n_wf : DotDims.WF S64x128 S128x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x128.size a ≤ S64x128.size a
  hwx3_0 : ∀ i : grid3.Coords, EltTy.bits .f32 = 32 ∨ (Rect.block (s := S64x128) S64x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x10.size a ≤ S128x10.size a
  hwx3_1 : ∀ i : grid3.Coords, EltTy.bits .f32 = 32 ∨ (Rect.block (s := S128x10) S128x10.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S10.size a ≤ S10.size a
  hwx3_2 : ∀ i : grid3.Coords, EltTy.bits .f32 = 32 ∨ (Rect.block (s := S10) S10.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x10.size a ≤ S64x10.size a
  hwx3_3 : ∀ i : grid3.Coords, EltTy.bits .f32 = 32 ∨ (Rect.block (s := S64x10) S64x10.size (cc3_transform_3 i) (hinb3_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

abbrev win0_0 : Pipeline.Window sig grid0 :=
  Pipeline.Window.ofSpec (Memref.whole main_v13) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v30) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v47) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v53) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S10000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S64x128.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg6) S128x10.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S10.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S64x10.size cc3_transform_3 reads3_3 true true 1 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S128x10 : Shape := ⟨2, ![128, 10]⟩
abbrev S10 : Shape := ⟨1, ![10]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S64 : Shape := ⟨1, ![64]⟩
abbrev S100000x1 : Shape := ⟨2, ![100000, 1]⟩
abbrev S64x128 : Shape := ⟨2, ![64, 128]⟩
abbrev S64x1 : Shape := ⟨2, ![64, 1]⟩
abbrev S64x10 : Shape := ⟨2, ![64, 10]⟩
abbrev S1x10 : Shape := ⟨2, ![1, 10]⟩

abbrev nBuf : Space → Nat
  | .hbm => 122
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S3x128x128, .f32⟩
  | .hbm, ⟨4, _⟩ => ⟨S3x128x128, .f32⟩
  | .hbm, ⟨5, _⟩ => ⟨S3x128, .f32⟩
  | .hbm, ⟨6, _⟩ => ⟨S128x10, .f32⟩
  | .hbm, ⟨7, _⟩ => ⟨S10, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S1x128x128, .f32⟩
  | .hbm, ⟨26, _⟩ => ⟨S128x128, .f32⟩
  | .hbm, ⟨27, _⟩ => ⟨S100000x128, .f32⟩
  | .hbm, ⟨28, _⟩ => ⟨S1x128, .f32⟩
  | .hbm, ⟨29, _⟩ => ⟨S128, .f32⟩
  | .hbm, ⟨30, _⟩ => ⟨S1x128, .f32⟩
  | .hbm, ⟨31, _⟩ => ⟨S100000x128, .f32⟩
  | .hbm, ⟨32, _⟩ => ⟨S100000x128, .f32⟩
  | .hbm, ⟨33, _⟩ => ⟨S1x128x128, .f32⟩
  | .hbm, ⟨34, _⟩ => ⟨S128x128, .f32⟩
  | .hbm, ⟨35, _⟩ => ⟨S100000x128, .f32⟩
  | .hbm, ⟨36, _⟩ => ⟨S100000x128, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S_, .f32⟩
  | .hbm, ⟨47, _⟩ => ⟨S100000x128, .f32⟩
  | .hbm, ⟨48, _⟩ => ⟨S1600000x1, .i32⟩
  | .hbm, ⟨49, _⟩ => ⟨S100000x128, .f32⟩
  | .hbm, ⟨50, _⟩ => ⟨S1x128x128, .f32⟩
  | .hbm, ⟨51, _⟩ => ⟨S128x128, .f32⟩
  | .hbm, ⟨52, _⟩ => ⟨S100000x128, .f32⟩
  | .hbm, ⟨53, _⟩ => ⟨S1x128, .f32⟩
  | .hbm, ⟨54, _⟩ => ⟨S128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S1x128x128, .f32⟩
  | .hbm, ⟨59, _⟩ => ⟨S128x128, .f32⟩
  | .hbm, ⟨60, _⟩ => ⟨S100000x128, .f32⟩
  | .hbm, ⟨61, _⟩ => ⟨S100000x128, .f32⟩
  | .hbm, ⟨62, _⟩ => ⟨S_, .i32⟩
  | .hbm, ⟨63, _⟩ => ⟨S1600000, .i32⟩
  | .hbm, ⟨64, _⟩ => ⟨S1600000, .i1⟩
  | .hbm, ⟨65, _⟩ => ⟨S_, .i32⟩
  | .hbm, ⟨66, _⟩ => ⟨S1600000, .i32⟩
  | .hbm, ⟨67, _⟩ => ⟨S1600000, .i32⟩
  | .hbm, ⟨68, _⟩ => ⟨S1600000, .i32⟩
  | .hbm, ⟨69, _⟩ => ⟨S1600000x1, .i32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S1x128x128, .f32⟩
  | .hbm, ⟨76, _⟩ => ⟨S128x128, .f32⟩
  | .hbm, ⟨77, _⟩ => ⟨S100000x128, .f32⟩
  | .hbm, ⟨78, _⟩ => ⟨S1x128, .f32⟩
  | .hbm, ⟨79, _⟩ => ⟨S128, .f32⟩
  | .hbm, ⟨80, _⟩ => ⟨S1x128, .f32⟩
  | .hbm, ⟨81, _⟩ => ⟨S100000x128, .f32⟩
  | .hbm, ⟨82, _⟩ => ⟨S100000x128, .f32⟩
  | .hbm, ⟨83, _⟩ => ⟨S1x128x128, .f32⟩
  | .hbm, ⟨84, _⟩ => ⟨S128x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000, .f32⟩
  | .hbm, ⟨89, _⟩ => ⟨S_, .f32⟩
  | .hbm, ⟨90, _⟩ => ⟨S64, .f32⟩
  | .hbm, ⟨91, _⟩ => ⟨S100000x1, .i32⟩
  | .hbm, ⟨92, _⟩ => ⟨S64, .f32⟩
  | .hbm, ⟨93, _⟩ => ⟨S_, .f32⟩
  | .hbm, ⟨94, _⟩ => ⟨S64x128, .f32⟩
  | .hbm, ⟨95, _⟩ => ⟨S100000x1, .i32⟩
  | .hbm, ⟨96, _⟩ => ⟨S64x128, .f32⟩
  | .hbm, ⟨97, _⟩ => ⟨S_, .f32⟩
  | .hbm, ⟨98, _⟩ => ⟨S64, .f32⟩
  | .hbm, ⟨99, _⟩ => ⟨S64, .f32⟩
  | .hbm, ⟨100, _⟩ => ⟨S64x1, .f32⟩
  | .hbm, ⟨101, _⟩ => ⟨S64x128, .f32⟩
  | .hbm, ⟨102, _⟩ => ⟨S64x128, .f32⟩
  | .hbm, ⟨103, _⟩ => ⟨S64x10, .f32⟩
  | .hbm, ⟨104, _⟩ => ⟨S1x10, .f32⟩
  | .hbm, ⟨105, _⟩ => ⟨S64x10, .f32⟩
  | .hbm, ⟨106, _⟩ => ⟨S64x10, .f32⟩
  | .hbm, ⟨107, _⟩ => ⟨S_, .f32⟩
  | .hbm, ⟨108, _⟩ => ⟨S64, .f32⟩
  | .hbm, ⟨109, _⟩ => ⟨S_, .f32⟩
  | .hbm, ⟨110, _⟩ => ⟨S64, .f32⟩
  | .hbm, ⟨111, _⟩ => ⟨S64, .f32⟩
  | .hbm, ⟨112, _⟩ => ⟨S64x1, .f32⟩
  | .hbm, ⟨113, _⟩ => ⟨S64x10, .f32⟩
  | .hbm, ⟨114, _⟩ => ⟨S64x10, .f32⟩
  | .hbm, ⟨115, _⟩ => ⟨S64x10, .f32⟩
  | .hbm, ⟨116, _⟩ => ⟨S_, .f32⟩
  | .hbm, ⟨117, _⟩ => ⟨S64, .f32⟩
  | .hbm, ⟨118, _⟩ => ⟨S64x1, .f32⟩
  | .hbm, ⟨119, _⟩ => ⟨S64x1, .f32⟩
  | .hbm, ⟨120, _⟩ => ⟨S64x10, .f32⟩
  | .hbm, ⟨121, _⟩ => ⟨S64x10, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_1 : Ref sig .tc := ⟨.hbm, 37, rfl⟩
abbrev main_v26 : Ref sig .tc := ⟨.hbm, 38, rfl⟩
abbrev main_v27 : Ref sig .tc := ⟨.hbm, 39, rfl⟩
abbrev main_c_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_4 : Ref sig .tc := ⟨.hbm, 62, rfl⟩
abbrev main_v48 : Ref sig .tc := ⟨.hbm, 63, rfl⟩
abbrev main_v49 : Ref sig .tc := ⟨.hbm, 64, rfl⟩
abbrev main_c_5 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_cst_7 : Ref sig .tc := ⟨.hbm, 87, rfl⟩
abbrev main_v70 : Ref sig .tc := ⟨.hbm, 88, rfl⟩
abbrev main_cst_8 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_9 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_10 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_call0_cst : Ref sig .tc := ⟨.hbm, 107, rfl⟩
abbrev main_call0_v0 : Ref sig .tc := ⟨.hbm, 108, rfl⟩
abbrev main_call0_cst_0 : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_call0_v4 : Ref sig .tc := ⟨.hbm, 113, rfl⟩
abbrev main_call0_v5 : Ref sig .tc := ⟨.hbm, 114, rfl⟩
abbrev main_call0_v6 : Ref sig .tc := ⟨.hbm, 115, rfl⟩
abbrev main_call0_cst_1 : Ref sig .tc := ⟨.hbm, 116, rfl⟩
abbrev main_call0_v7 : Ref sig .tc := ⟨.hbm, 117, rfl⟩
abbrev main_call0_v8 : Ref sig .tc := ⟨.hbm, 118, rfl⟩
abbrev main_call0_v9 : Ref sig .tc := ⟨.hbm, 119, rfl⟩
abbrev main_call0_v10 : Ref sig .tc := ⟨.hbm, 120, rfl⟩
abbrev main_v86 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S100000 : S_.BroadcastsInDim S100000 (![] : Fin 0 → Fin S100000.rank)
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S64x1_S64x10_0_1 : S64x1.BroadcastsInDim S64x10 (![0, 1] : Fin 2 → Fin S64x10.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x10_S64x10_1_0_0_1_n_n_wf : DotDims.WF S64x128 S128x10 S64x10 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x10_S64x10_1_0_0_1_n_n : DotDims S64x128 S128x10 S64x10 where
  lhsContracting := [1]
  rhsContracting := [0]
  lhsNonContracting := [0]
  rhsNonContracting := [1]
  lhsBatch := []
  rhsBatch := []
  wf := dot_S64x128_S128x10_S64x10_1_0_0_1_n_n_wf

class Facts : Prop extends Facts₀ where

variable [Facts]
-- ==== Proof.KernelRun.lean ====
/-
  The idealized kernel's run with its result named. @main is eight segments: four stretches of host operations and
  four pipelined regions. The contents of every unscoped buffer at each boundary form a fold from the launch memory:
  a stretch applies its operations, a region replaces its arrays by what its write-backs leave. Every weakly fair
  execution terminates without a fault, with each unscoped buffer at the last contents of that fold; here the result
  array is read off beside the argument arrays, which end as launched.
-/
import proofs.«133446_j51754355916837_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the fold's last
    contents and the argument arrays as launched. -/
theorem run_result : θ_run defs (onTc (τ := τ) (main (F := F))) ⟨m, fun _ => 0, ρ⟩ (fun r => ∀ c : Dev nD,
      r.2.mem ((c.tc : Thread nD τ).loc main_v67) = W8 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v67 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.RunValue

end
-- ==== Proof.LibMatmul.lean ====
/-
  A matrix product of an [M, K] matrix by a [K, N] matrix into a zero accumulator, read at an entry at any sizes: entry
  (p, q) is the sum over k of the left operand's (p, k) entry times the right operand's (k, q) entry.
-/
import Idealize.ShloMosaic.PureOps.Ideal.Laws
import Idealize.ShloMosaic.Lib.ValueIdx

noncomputable section

namespace Cert.LibMatmul

open Idealize.ShloMosaic Idealize.ShloMosaic.ValueIdx

/-- The dimension numbers of the plain product — contract the left operand's axis 1 with the right operand's axis 0, no
    batch axes — under any proof of their conditions. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

theorem contr_rank : (plainDims M K N wf).contr.rank = 1 := rfl
theorem contr_size : (plainDims M K N wf).contr.size ⟨0, by rw [contr_rank]; exact Nat.one_pos⟩ = K := rfl

/-- The left operand's index at output (p, q) and contraction position k is (p, k). -/
theorem lhsIdx_eq (p : Fin M) (q : Fin N) (k : Fin K) :
    (plainDims M K N wf).lhsIdx (ix2 p q) ((contrEquiv1 (plainDims M K N wf) K (contr_rank wf) (contr_size wf)).symm k) = ix2 p k := by
  funext a
  apply Fin.ext
  match a with
  | ⟨0, _⟩ =>
    show ((plainDims M K N wf).lhsIdx (ix2 p q) _ (0 : Fin 2)).val = p.val
    unfold DotDims.lhsIdx
    simp
    rfl
  | ⟨1, _⟩ =>
    refine ((plainDims M K N wf).lhsIdx_val_of_single (cl := (1 : Fin 2)) rfl _ _).trans ?_
    exact contrEquiv1_symm_val _ K (contr_rank wf) (contr_size wf) k

/-- The right operand's index at output (p, q) and contraction position k is (k, q). -/
theorem rhsIdx_eq (p : Fin M) (q : Fin N) (k : Fin K) :
    (plainDims M K N wf).rhsIdx (ix2 p q) ((contrEquiv1 (plainDims M K N wf) K (contr_rank wf) (contr_size wf)).symm k) = ix2 k q := by
  funext a
  apply Fin.ext
  match a with
  | ⟨0, _⟩ =>
    refine ((plainDims M K N wf).rhsIdx_val_of_single (cr := (0 : Fin 2)) rfl _ _).trans ?_
    exact contrEquiv1_symm_val _ K (contr_rank wf) (contr_size wf) k
  | ⟨1, _⟩ =>
    show ((plainDims M K N wf).rhsIdx (ix2 p q) _ (1 : Fin 2)).val = q.val
    unfold DotDims.rhsIdx
    simp
    rfl

/-- THE PRODUCT READ AT (p, q): the sum over the contracted axis of the operands' entries multiplied. -/
theorem matmul_plain_apply {φ₁ φ₂ : FTy} (prec : Option ContractPrecision)
    (lhs : FVec Ideal ⟨2, ![M, K]⟩ φ₁) (rhs : FVec Ideal ⟨2, ![K, N]⟩ φ₂) (p : Fin M) (q : Fin N) :
    matmul (plainDims M K N wf) prec lhs rhs (constant ⟨2, ![M, N]⟩ .f32 0x00000000#32) (ix2 p q)
      = ∑ k : Fin K, lhs (ix2 p k) * rhs (ix2 k q) := by
  refine (Ideal.matmul_constant_zero_apply (plainDims M K N wf) prec lhs rhs (ix2 p q)).trans ?_
  rw [← Equiv.sum_comp (contrEquiv1 (plainDims M K N wf) K (contr_rank wf) (contr_size wf)).symm]
  refine Finset.sum_congr rfl fun k _ => ?_
  rw [lhsIdx_eq, rhsIdx_eq]

end Cert.LibMatmul

end
-- ==== Proof.LibColumn.lean ====
/-
  A column kept beside a matrix, read at an index at any sizes: a vector of length a cast to an [a, 1] column, and an
  [a, 1] column laid along every column of an [a, b] matrix.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibLayer.lean ====
/-
  The two whole-array functions of one graph-convolution layer, read at an entry at any sizes, over the extended reals:
  the product of an [M, K] matrix by a [K, N] matrix (entry (p, q) is the sum over k of x (p, k) · w (k, q)), and the
  layer's closing step, entry (p, q) ↦ agg (p, q) + h (p, q) · d p + b q, where d weighs the rows and b is added along
  the columns — stated once with d kept as an [n, 1] column and b as a [1, f] row, and once with both as plain vectors.
  Also: the host's dot_general with the plain dimension numbers is the product, and the host's spelling of the closing
  step (two broadcasts each for d and b, a multiply and two adds) is the closing step.
-/
import Idealize.ShloMosaic.PureOps.Ideal.Laws
import Idealize.ShloMosaic.Lib.ValueIdx
import Idealize.ShloMosaic.Lib.ValueLayout
import Idealize.ShloMosaic.Lib.Pipeline.Value
import proofs.«133446_j51754355916837_1_alg».proof.Proof.LibMatmul
import proofs.«133446_j51754355916837_1_alg».proof.Proof.LibColumn

noncomputable section

namespace Cert.Gcn

open Idealize.ShloMosaic Idealize.ShloMosaic.ValueIdx

/-! ## The matrix product -/

/-- The product of an [M, K] matrix by a [K, N] matrix: entry (p, q) is the sum over k of x (p, k) · w (k, q). -/
def prod {M K N : Nat} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem prod_apply {M K N : Nat} (x : FVec Ideal ⟨2, ![M, K]⟩ .f32) (w : FVec Ideal ⟨2, ![K, N]⟩ .f32) (p : Fin M) (q : Fin N) :
    prod x w (ix2 p q) = ∑ k : Fin K, x (ix2 p k) * w (ix2 k q) := rfl

/-- The host's dot_general with the plain dimension numbers (contract the left operand's axis 1 with the right operand's
    axis 0) is the product: both are the same sum over the contracted axis. -/
theorem dotGeneral_plain {M K N : Nat} (wf : DotDims.WF ⟨2, ![M, K]⟩ ⟨2, ![K, N]⟩ ⟨2, ![M, N]⟩ [1] [0] [0] [1] [] [])
    (prec : Option ContractPrecision) (x : FVec Ideal ⟨2, ![M, K]⟩ .f32) (w : FVec Ideal ⟨2, ![K, N]⟩ .f32) :
    Host.dotGeneral (F := Ideal) (Cert.LibMatmul.plainDims M K N wf) prec x w = prod x w := by
  funext i
  obtain ⟨p, q, rfl⟩ : ∃ (p : Fin M) (q : Fin N), i = ix2 p q := ⟨i 0, i 1, eq_ix2 i⟩
  refine (Ideal.dotGeneral_apply (Cert.LibMatmul.plainDims M K N wf) prec .single x w (ix2 p q)).trans ?_
  rw [← Equiv.sum_comp (contrEquiv1 (Cert.LibMatmul.plainDims M K N wf) K (Cert.LibMatmul.contr_rank wf) (Cert.LibMatmul.contr_size wf)).symm]
  refine Finset.sum_congr rfl fun k _ => ?_
  rw [Cert.LibMatmul.lhsIdx_eq, Cert.LibMatmul.rhsIdx_eq]
  rfl

/-! ## The closing step of a layer -/

/-- agg + h · d + b with d an [n, 1] column and b a [1, f] row. -/
def closeCols {n f : Nat} (agg h : FVec Ideal ⟨2, ![n, f]⟩ .f32) (d : FVec Ideal ⟨2, ![n, 1]⟩ .f32) (b : FVec Ideal ⟨2, ![1, f]⟩ .f32) :
    FVec Ideal ⟨2, ![n, f]⟩ .f32 :=
  fun i => agg i + h i * d (ix2 (n0 := n) (i 0) (0 : Fin 1)) + b (ix2 (n1 := f) (0 : Fin 1) (i 1))

/-- agg + h · d + b with d a vector over the rows and b a vector over the columns. -/
def close {n f : Nat} (agg h : FVec Ideal ⟨2, ![n, f]⟩ .f32) (d : FVec Ideal ⟨1, ![n]⟩ .f32) (b : FVec Ideal ⟨1, ![f]⟩ .f32) :
    FVec Ideal ⟨2, ![n, f]⟩ .f32 :=
  fun i => agg i + h i * d (ix1 (n := n) (i 0)) + b (ix1 (n := f) (i 1))

/-- The column form at the vectors cast to a column and to a row is the vector form. -/
theorem closeCols_cast {n f : Nat} (agg h : FVec Ideal ⟨2, ![n, f]⟩ .f32) (d : FVec Ideal ⟨1, ![n]⟩ .f32) (b : FVec Ideal ⟨1, ![f]⟩ .f32)
    (hd : (⟨1, ![n]⟩ : Shape).ShapeCasts ⟨2, ![n, 1]⟩) (hb : (⟨1, ![f]⟩ : Shape).ShapeCasts ⟨2, ![1, f]⟩) :
    closeCols agg h (shapeCast ⟨2, ![n, 1]⟩ d hd) (shapeCast ⟨2, ![1, f]⟩ b hb) = close agg h d b := by
  funext i
  obtain ⟨p, q, rfl⟩ : ∃ (p : Fin n) (q : Fin f), i = ix2 p q := ⟨i 0, i 1, eq_ix2 i⟩
  show agg (ix2 p q) + h (ix2 p q) * shapeCast ⟨2, ![n, 1]⟩ d hd (ix2 p (0 : Fin 1)) + shapeCast ⟨2, ![1, f]⟩ b hb (ix2 (0 : Fin 1) q)
    = agg (ix2 p q) + h (ix2 p q) * d (ix1 p) + b (ix1 q)
  rw [Cert.LibColumn.shapeCast_a_a1_apply, shapeCast_a_1a_apply]

/-- The host's spelling: d broadcast to a column and along the columns, b broadcast to a row and along the rows, one
    multiply and two adds, is the vector form. -/
theorem host_close {n f : Nat} (agg h : FVec Ideal ⟨2, ![n, f]⟩ .f32) (d : FVec Ideal ⟨1, ![n]⟩ .f32) (b : FVec Ideal ⟨1, ![f]⟩ .f32)
    (h1 : (⟨1, ![n]⟩ : Shape).BroadcastsInDim ⟨2, ![n, 1]⟩ (![0] : Fin 1 → Fin 2))
    (h2 : (⟨2, ![n, 1]⟩ : Shape).BroadcastsInDim ⟨2, ![n, f]⟩ (![0, 1] : Fin 2 → Fin 2))
    (h3 : (⟨1, ![f]⟩ : Shape).BroadcastsInDim ⟨2, ![1, f]⟩ (![1] : Fin 1 → Fin 2))
    (h4 : (⟨2, ![1, f]⟩ : Shape).BroadcastsInDim ⟨2, ![n, f]⟩ (![0, 1] : Fin 2 → Fin 2)) :
    addf (addf agg (mulf h (broadcastInDim ⟨2, ![n, f]⟩ ![0, 1] h2 (broadcastInDim ⟨2, ![n, 1]⟩ ![0] h1 d))))
      (broadcastInDim ⟨2, ![n, f]⟩ ![0, 1] h4 (broadcastInDim ⟨2, ![1, f]⟩ ![1] h3 b)) = close agg h d b := by
  funext i
  obtain ⟨p, q, rfl⟩ : ∃ (p : Fin n) (q : Fin f), i = ix2 p q := ⟨i 0, i 1, eq_ix2 i⟩
  have e1 : broadcastInDim ⟨2, ![n, f]⟩ ![0, 1] h2 (broadcastInDim ⟨2, ![n, 1]⟩ ![0] h1 d) (ix2 p q) = d (ix1 p) := by
    refine (broadcastInDim_apply _ h2 _ (ix2 p q) (ix2 p (0 : Fin 1)) fun a => ?_).trans
      (broadcastInDim_apply _ h1 d (ix2 p (0 : Fin 1)) (ix1 p) fun a => ?_)
    · match a with
      | ⟨0, _⟩ =>
        show p.val = if n = 1 then 0 else p.val
        split
        · have := p.isLt; omega
        · rfl
      | ⟨1, _⟩ => rfl
    · match a with
      | ⟨0, _⟩ =>
        show p.val = if n = 1 then 0 else p.val
        split
        · have := p.isLt; omega
        · rfl
  have e2 : broadcastInDim ⟨2, ![n, f]⟩ ![0, 1] h4 (broadcastInDim ⟨2, ![1, f]⟩ ![1] h3 b) (ix2 p q) = b (ix1 q) := by
    refine (broadcastInDim_apply _ h4 _ (ix2 p q) (ix2 (0 : Fin 1) q) fun a => ?_).trans
      (broadcastInDim_apply _ h3 b (ix2 (0 : Fin 1) q) (ix1 q) fun a => ?_)
    · match a with
      | ⟨0, _⟩ => rfl
      | ⟨1, _⟩ =>
        show q.val = if f = 1 then 0 else q.val
        split
        · have := q.isLt; omega
        · rfl
    · match a with
      | ⟨0, _⟩ =>
        show q.val = if f = 1 then 0 else q.val
        split
        · have := q.isLt; omega
        · rfl
  show agg (ix2 p q) + h (ix2 p q) * _ + _ = agg (ix2 p q) + h (ix2 p q) * d (ix1 p) + b (ix1 q)
  rw [e1, e2]

/-! ## The clamp below at zero -/

/-- max (v, 0), entry by entry. -/
def clamp {s : Shape} (v : FVec Ideal s .f32) : FVec Ideal s .f32 := fun i => max (v i) (Ideal.ofBits .f32 0x00000000#32)

/-- The host's spelling — the maximum with the zero constant broadcast to the shape — is the clamp. -/
theorem host_clamp {s : Shape} (v : FVec Ideal s .f32) (h0 : (⟨0, ![]⟩ : Shape).BroadcastsInDim s (![] : Fin 0 → Fin s.rank)) :
    maximumf v (broadcastInDim s ![] h0 (constant (F := Ideal) ⟨0, ![]⟩ .f32 0x00000000#32)) = clamp v := by
  funext i
  show max (v i) (broadcastInDim s ![] h0 (constant (F := Ideal) ⟨0, ![]⟩ .f32 0x00000000#32) i) = max (v i) _
  rw [broadcastInDim_apply _ h0 _ i ix0 (fun a => a.elim0)]
  rfl

end Cert.Gcn

end
-- ==== Proof.LibRowBias.lean ====
/-
  A bias added along the rows of a matrix, read at an entry at any sizes over the extended reals: entry (p, q) of the
  result is a (p, q) + b q. The host spells it with two broadcasts (the vector to a [1, f] row, the row along every row of
  the [n, f] matrix) and one add; a vector unit spells the row with a cast [f] -> [1, f] and a broadcast [1, f] -> [n, f].
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibRowBias

open Idealize.ShloMosaic Idealize.ShloMosaic.ValueIdx

/-- a + b along the rows: entry (p, q) is a (p, q) + b q. -/
def rowBias {n f : Nat} (a : FVec Ideal ⟨2, ![n, f]⟩ .f32) (b : FVec Ideal ⟨1, ![f]⟩ .f32) : FVec Ideal ⟨2, ![n, f]⟩ .f32 :=
  fun i => a i + b (ix1 (n := f) (i 1))

theorem rowBias_apply {n f : Nat} (a : FVec Ideal ⟨2, ![n, f]⟩ .f32) (b : FVec Ideal ⟨1, ![f]⟩ .f32) (p : Fin n) (q : Fin f) :
    rowBias a b (ix2 p q) = a (ix2 p q) + b (ix1 q) := rfl

/-- The host's two broadcasts of a vector [f], to the row [1, f] and then along the rows of [n, f], read at (p, q): the
    vector's entry q. -/
theorem host_row_apply {α : Type} {n f : Nat} (b : (⟨1, ![f]⟩ : Shape).Idx → α)
    (h3 : (⟨1, ![f]⟩ : Shape).BroadcastsInDim ⟨2, ![1, f]⟩ (![1] : Fin 1 → Fin 2))
    (h4 : (⟨2, ![1, f]⟩ : Shape).BroadcastsInDim ⟨2, ![n, f]⟩ (![0, 1] : Fin 2 → Fin 2)) (p : Fin n) (q : Fin f) :
    broadcastInDim ⟨2, ![n, f]⟩ ![0, 1] h4 (broadcastInDim ⟨2, ![1, f]⟩ ![1] h3 b) (ix2 p q) = b (ix1 q) := by
  refine (broadcastInDim_apply _ h4 _ (ix2 p q) (ix2 (0 : Fin 1) q) fun a => ?_).trans
    (broadcastInDim_apply _ h3 b (ix2 (0 : Fin 1) q) (ix1 q) fun a => ?_)
  · match a with
    | ⟨0, _⟩ => rfl
    | ⟨1, _⟩ =>
      show q.val = if f = 1 then 0 else q.val
      split
      · have := q.isLt; omega
      · rfl
  · match a with
    | ⟨0, _⟩ =>
      show q.val = if f = 1 then 0 else q.val
      split
      · have := q.isLt; omega
      · rfl

/-- The host's spelling of the bias along the rows is `rowBias`. -/
theorem host_rowBias {n f : Nat} (a : FVec Ideal ⟨2, ![n, f]⟩ .f32) (b : FVec Ideal ⟨1, ![f]⟩ .f32)
    (h3 : (⟨1, ![f]⟩ : Shape).BroadcastsInDim ⟨2, ![1, f]⟩ (![1] : Fin 1 → Fin 2))
    (h4 : (⟨2, ![1, f]⟩ : Shape).BroadcastsInDim ⟨2, ![n, f]⟩ (![0, 1] : Fin 2 → Fin 2)) :
    addf a (broadcastInDim ⟨2, ![n, f]⟩ ![0, 1] h4 (broadcastInDim ⟨2, ![1, f]⟩ ![1] h3 b)) = rowBias a b := by
  funext i
  obtain ⟨p, q, rfl⟩ : ∃ (p : Fin n) (q : Fin f), i = ix2 p q := ⟨i 0, i 1, eq_ix2 i⟩
  show a (ix2 p q) + _ = a (ix2 p q) + b (ix1 q)
  rw [host_row_apply]

end Cert.LibRowBias

end
-- ==== Proof.LibUnitOps.lean ====
/-
  The vector unit's spellings of three whole-array functions, at any sizes over the extended reals: a matrix product
  into a zero accumulator of operands cast to bf16 (the cast is the identity) is the product; a vector [f] cast to a row
  [1, f], broadcast along the rows of [n, f] and added is the bias along the rows; the maximum with a splat zero is the
  clamp below at zero.
-/
import Idealize.ShloMosaic.PureOps.Ideal.Laws
import Idealize.ShloMosaic.Lib.ValueIdx
import Idealize.ShloMosaic.Lib.ValueLayout
import Idealize.ShloMosaic.Lib.Pipeline.Value
import proofs.«133446_j51754355916837_1_alg».proof.Proof.LibLayer
import proofs.«133446_j51754355916837_1_alg».proof.Proof.LibRowBias

noncomputable section

namespace Cert.LibUnitOps

open Idealize.ShloMosaic Idealize.ShloMosaic.ValueIdx
open Cert.Gcn (prod clamp)
open Cert.LibRowBias (rowBias)

/-- A vector [f] cast to the row [1, f] and broadcast along the rows of [n, f], read at (p, q): the vector's entry q. -/
theorem unit_row_apply {α : Type} {n f : Nat} (b : (⟨1, ![f]⟩ : Shape).Idx → α)
    (h1 : (⟨1, ![f]⟩ : Shape).ShapeCasts ⟨2, ![1, f]⟩) (h2 : (⟨2, ![1, f]⟩ : Shape).Broadcasts ⟨2, ![n, f]⟩)
    (p : Fin n) (q : Fin f) : broadcastTo ⟨2, ![n, f]⟩ (shapeCast ⟨2, ![1, f]⟩ b h1) h2 (ix2 p q) = b (ix1 q) := by
  rw [broadcastTo_1b_ab_apply, shapeCast_a_1a_apply]

/-- The vector unit's bias along the rows is `rowBias`. -/
theorem unit_rowBias {n f : Nat} (a : FVec Ideal ⟨2, ![n, f]⟩ .f32) (b : FVec Ideal ⟨1, ![f]⟩ .f32)
    (h1 : (⟨1, ![f]⟩ : Shape).ShapeCasts ⟨2, ![1, f]⟩) (h2 : (⟨2, ![1, f]⟩ : Shape).Broadcasts ⟨2, ![n, f]⟩) :
    addf a (broadcastTo ⟨2, ![n, f]⟩ (shapeCast ⟨2, ![1, f]⟩ b h1) h2) = rowBias a b := by
  funext i
  obtain ⟨p, q, rfl⟩ : ∃ (p : Fin n) (q : Fin f), i = ix2 p q := ⟨i 0, i 1, eq_ix2 i⟩
  show a (ix2 p q) + _ = a (ix2 p q) + b (ix1 q)
  rw [unit_row_apply]

/-- The vector unit's maximum with a splat zero is the clamp. -/
theorem unit_clamp {s : Shape} (v : FVec Ideal s .f32) :
    maximumf v (broadcast s (Scalar.ofBits (F := Ideal) .f32 0x00000000#32)) = clamp v := by
  funext i
  rfl

/-- The vector unit's product into a zero accumulator, its operands cast to bf16, is the product. -/
theorem unit_matmul {M K N : Nat} (wf : DotDims.WF ⟨2, ![M, K]⟩ ⟨2, ![K, N]⟩ ⟨2, ![M, N]⟩ [1] [0] [0] [1] [] [])
    (prec : Option ContractPrecision) (x : FVec Ideal ⟨2, ![M, K]⟩ .f32) (w : FVec Ideal ⟨2, ![K, N]⟩ .f32)
    (hx : FTy.bf16.bits < FTy.f32.bits) (hw : FTy.bf16.bits < FTy.f32.bits) :
    matmul (Cert.LibMatmul.plainDims M K N wf) prec (truncf .bf16 x hx) (truncf .bf16 w hw) (constant ⟨2, ![M, N]⟩ .f32 0x00000000#32)
      = prod x w := by
  funext i
  obtain ⟨p, q, rfl⟩ : ∃ (p : Fin M) (q : Fin N), i = ix2 p q := ⟨i 0, i 1, eq_ix2 i⟩
  exact Cert.LibMatmul.matmul_plain_apply wf prec (truncf .bf16 x hx) (truncf .bf16 w hw) p q

end Cert.LibUnitOps

end
-- ==== Proof.LibRowLocal.lean ====
/-
  Row-local functions of matrices over the extended reals, at any sizes: the product x w at entry i reads only row i 0 of
  x and column i 1 of w; the bias along the rows reads a at i and b at i 1; the clamp reads v at i. So two such values
  are equal as soon as the entries they read are: this is how a row block of a blocked computation is identified with
  the rows of the whole-array function. Also the two-layer head (product, bias, clamp, product, bias) and its congruence.
-/
import Idealize.ShloMosaic.PureOps.Ideal.Laws
import Idealize.ShloMosaic.Lib.ValueIdx
import proofs.«133446_j51754355916837_1_alg».proof.Proof.LibLayer
import proofs.«133446_j51754355916837_1_alg».proof.Proof.LibRowBias

noncomputable section

namespace Cert.LibRowLocal

open Idealize.ShloMosaic Idealize.ShloMosaic.ValueIdx
open Cert.Gcn (prod clamp)
open Cert.LibRowBias (rowBias)

/-- Two products agree at entries whose rows of the left operands and columns of the right operands agree. -/
theorem prod_congr {M M' K N : Nat} (x : FVec Ideal ⟨2, ![M, K]⟩ .f32) (X : FVec Ideal ⟨2, ![M', K]⟩ .f32)
    (w W : FVec Ideal ⟨2, ![K, N]⟩ .f32) (i : (⟨2, ![M, N]⟩ : Shape).Idx) (I : (⟨2, ![M', N]⟩ : Shape).Idx)
    (hx : ∀ k : Fin K, x (ix2 (n0 := M) (i 0) k) = X (ix2 (n0 := M') (I 0) k))
    (hw : ∀ k : Fin K, w (ix2 (n1 := N) k (i 1)) = W (ix2 (n1 := N) k (I 1))) :
    prod x w i = prod X W I := by
  show ∑ k : Fin K, x (ix2 (n0 := M) (i 0) k) * w (ix2 (n1 := N) k (i 1)) = ∑ k : Fin K, X (ix2 (n0 := M') (I 0) k) * W (ix2 (n1 := N) k (I 1))
  exact Finset.sum_congr rfl fun k _ => by rw [hx k, hw k]

/-- Two biased matrices agree at entries where the matrices agree and the biases agree at the column. -/
theorem rowBias_congr {n n' f : Nat} (a : FVec Ideal ⟨2, ![n, f]⟩ .f32) (A : FVec Ideal ⟨2, ![n', f]⟩ .f32)
    (b B : FVec Ideal ⟨1, ![f]⟩ .f32) (i : (⟨2, ![n, f]⟩ : Shape).Idx) (I : (⟨2, ![n', f]⟩ : Shape).Idx)
    (ha : a i = A I) (hb : b (ix1 (n := f) (i 1)) = B (ix1 (n := f) (I 1))) : rowBias a b i = rowBias A B I := by
  show a i + b (ix1 (n := f) (i 1)) = A I + B (ix1 (n := f) (I 1))
  rw [ha, hb]

/-- Two clamps agree where their operands agree. -/
theorem clamp_congr {s s' : Shape} (v : FVec Ideal s .f32) (V : FVec Ideal s' .f32) (i : s.Idx) (I : s'.Idx)
    (h : v i = V I) : clamp v i = clamp V I := by
  show max (v i) _ = max (V I) _
  rw [h]

/-- The two-layer head: product, bias along the rows, clamp at zero, product, bias along the rows. -/
def head {n a b c : Nat} (h : FVec Ideal ⟨2, ![n, a]⟩ .f32) (w3 : FVec Ideal ⟨2, ![a, b]⟩ .f32) (b3 : FVec Ideal ⟨1, ![b]⟩ .f32)
    (w4 : FVec Ideal ⟨2, ![b, c]⟩ .f32) (b4 : FVec Ideal ⟨1, ![c]⟩ .f32) : FVec Ideal ⟨2, ![n, c]⟩ .f32 :=
  rowBias (prod (clamp (rowBias (prod h w3) b3)) w4) b4

/-- Two heads over the same weights agree at entries of the same column whose rows of the inputs agree. -/
theorem head_congr {n n' a b c : Nat} (h : FVec Ideal ⟨2, ![n, a]⟩ .f32) (H : FVec Ideal ⟨2, ![n', a]⟩ .f32)
    (w3 : FVec Ideal ⟨2, ![a, b]⟩ .f32) (b3 : FVec Ideal ⟨1, ![b]⟩ .f32) (w4 : FVec Ideal ⟨2, ![b, c]⟩ .f32) (b4 : FVec Ideal ⟨1, ![c]⟩ .f32)
    (i : (⟨2, ![n, c]⟩ : Shape).Idx) (I : (⟨2, ![n', c]⟩ : Shape).Idx)
    (hh : ∀ k : Fin a, h (ix2 (n0 := n) (i 0) k) = H (ix2 (n0 := n') (I 0) k)) (h1 : i 1 = I 1) :
    head h w3 b3 w4 b4 i = head H w3 b3 w4 b4 I := by
  unfold head
  refine rowBias_congr _ _ _ _ i I ?_ (by rw [h1])
  refine prod_congr _ _ _ _ i I (fun j => ?_) (fun j => by rw [h1])
  refine clamp_congr _ _ _ _ ?_
  refine rowBias_congr _ _ _ _ _ _ ?_ rfl
  exact prod_congr _ _ _ _ _ _ hh (fun k => rfl)

end Cert.LibRowLocal

end
-- ==== Proof.LayerSpec.lean ====
/-
  One layer of the network as a whole-array function over the extended reals, at any sizes: from the aggregated
  neighbours agg [n, d], the nodes x [n, d], two weight matrices wr, wo [d, e] and a bias b [e],

      layer agg x wr wo b (p, q) = (sum over k of agg (p, k) · wr (k, q) + b q) + sum over k of x (p, k) · wo (k, q).

  Row p of the result reads only row p of agg and of x, so a layer computed on a block of rows is the block of the
  layer. The vector unit's spelling (two products of operands cast to bf16 into zero accumulators, the bias cast to a
  row and broadcast along the rows, two adds) and the host's spelling (two dot_generals, the bias broadcast twice, two
  adds) are both this function.
-/
import Idealize.ShloMosaic.PureOps.Ideal.Laws
import Idealize.ShloMosaic.Lib.ValueIdx
import Idealize.ShloMosaic.Lib.ValueLayout
import Idealize.ShloMosaic.Lib.Pipeline.Value
import proofs.«133446_j51754355916837_1_alg».proof.Proof.LibLayer
import proofs.«133446_j51754355916837_1_alg».proof.Proof.LibRowBias
import proofs.«133446_j51754355916837_1_alg».proof.Proof.LibUnitOps
import proofs.«133446_j51754355916837_1_alg».proof.Proof.LibRowLocal

noncomputable section

namespace Cert.LayerSpec

open Idealize.ShloMosaic Idealize.ShloMosaic.ValueIdx
open Cert.Gcn (prod)
open Cert.LibRowBias (rowBias)

/-- (agg · wr + b along the rows) + x · wo. -/
def layer {n d e : Nat} (agg x : FVec Ideal ⟨2, ![n, d]⟩ .f32) (wr wo : FVec Ideal ⟨2, ![d, e]⟩ .f32)
    (b : FVec Ideal ⟨1, ![e]⟩ .f32) : FVec Ideal ⟨2, ![n, e]⟩ .f32 :=
  addf (rowBias (prod agg wr) b) (prod x wo)

/-- Two layers over the same weights and bias agree at entries of the same column whose rows of agg and of x agree. -/
theorem layer_congr {n n' d e : Nat} (agg x : FVec Ideal ⟨2, ![n, d]⟩ .f32) (Agg X : FVec Ideal ⟨2, ![n', d]⟩ .f32)
    (wr wo : FVec Ideal ⟨2, ![d, e]⟩ .f32) (b : FVec Ideal ⟨1, ![e]⟩ .f32)
    (i : (⟨2, ![n, e]⟩ : Shape).Idx) (I : (⟨2, ![n', e]⟩ : Shape).Idx)
    (hagg : ∀ k : Fin d, agg (ix2 (n0 := n) (i 0) k) = Agg (ix2 (n0 := n') (I 0) k))
    (hx : ∀ k : Fin d, x (ix2 (n0 := n) (i 0) k) = X (ix2 (n0 := n') (I 0) k)) (h1 : i 1 = I 1) :
    layer agg x wr wo b i = layer Agg X wr wo b I := by
  show rowBias (prod agg wr) b i + prod x wo i = rowBias (prod Agg wr) b I + prod X wo I
  rw [Cert.LibRowLocal.rowBias_congr (prod agg wr) (prod Agg wr) b b i I
        (Cert.LibRowLocal.prod_congr agg Agg wr wr i I hagg (fun k => by rw [h1])) (by rw [h1]),
      Cert.LibRowLocal.prod_congr x X wo wo i I hx (fun k => by rw [h1])]

/-- The vector unit's spelling of a layer is the layer. -/
theorem unit_layer {n d e : Nat} (wf : DotDims.WF ⟨2, ![n, d]⟩ ⟨2, ![d, e]⟩ ⟨2, ![n, e]⟩ [1] [0] [0] [1] [] [])
    (prec : Option ContractPrecision) (agg x : FVec Ideal ⟨2, ![n, d]⟩ .f32) (wr wo : FVec Ideal ⟨2, ![d, e]⟩ .f32)
    (b : FVec Ideal ⟨1, ![e]⟩ .f32) (hb : FTy.bf16.bits < FTy.f32.bits)
    (h1 : (⟨1, ![e]⟩ : Shape).ShapeCasts ⟨2, ![1, e]⟩) (h2 : (⟨2, ![1, e]⟩ : Shape).Broadcasts ⟨2, ![n, e]⟩) :
    addf (addf (matmul (Cert.LibMatmul.plainDims n d e wf) prec (truncf .bf16 agg hb) (truncf .bf16 wr hb) (constant ⟨2, ![n, e]⟩ .f32 0x00000000#32))
        (broadcastTo ⟨2, ![n, e]⟩ (shapeCast ⟨2, ![1, e]⟩ b h1) h2))
      (matmul (Cert.LibMatmul.plainDims n d e wf) prec (truncf .bf16 x hb) (truncf .bf16 wo hb) (constant ⟨2, ![n, e]⟩ .f32 0x00000000#32))
      = layer agg x wr wo b := by
  rw [Cert.LibUnitOps.unit_matmul wf prec agg wr hb hb, Cert.LibUnitOps.unit_matmul wf prec x wo hb hb,
    Cert.LibUnitOps.unit_rowBias (prod agg wr) b h1 h2]
  rfl

/-- The host's spelling of a layer is the layer. -/
theorem host_layer {n d e : Nat} (wf : DotDims.WF ⟨2, ![n, d]⟩ ⟨2, ![d, e]⟩ ⟨2, ![n, e]⟩ [1] [0] [0] [1] [] [])
    (prec : Option ContractPrecision) (agg x : FVec Ideal ⟨2, ![n, d]⟩ .f32) (wr wo : FVec Ideal ⟨2, ![d, e]⟩ .f32)
    (b : FVec Ideal ⟨1, ![e]⟩ .f32)
    (h3 : (⟨1, ![e]⟩ : Shape).BroadcastsInDim ⟨2, ![1, e]⟩ (![1] : Fin 1 → Fin 2))
    (h4 : (⟨2, ![1, e]⟩ : Shape).BroadcastsInDim ⟨2, ![n, e]⟩ (![0, 1] : Fin 2 → Fin 2)) :
    addf (addf (Host.dotGeneral (F := Ideal) (Cert.LibMatmul.plainDims n d e wf) prec agg wr)
        (broadcastInDim ⟨2, ![n, e]⟩ ![0, 1] h4 (broadcastInDim ⟨2, ![1, e]⟩ ![1] h3 b)))
      (Host.dotGeneral (F := Ideal) (Cert.LibMatmul.plainDims n d e wf) prec x wo)
      = layer agg x wr wo b := by
  rw [Cert.Gcn.dotGeneral_plain wf prec agg wr, Cert.Gcn.dotGeneral_plain wf prec x wo,
    Cert.LibRowBias.host_rowBias (prod agg wr) b h3 h4]
  rfl

end Cert.LayerSpec

end
-- ==== Proof.Region0.lean ====
/-
  Region 0 of @main, one layer of the network, as a whole-array function of the arrays the region finds at entry.
  The grid has ten points; point t stages rows 10000·t … 10000·t + 9999 of the aggregated neighbours and of the nodes,
  the two weight matrices and the bias whole, and writes back the same rows of the output. The body computes the layer
  on its block of rows, and a row of a layer reads only that row of its two row operands, so each block written back is
  the block of the layer of the whole arrays; the ten blocks tile the output.
-/
import proofs.«133446_j51754355916837_1_alg».proof.Proof.Gen.KernelIdeal.Frame
import proofs.«133446_j51754355916837_1_alg».proof.Proof.LayerSpec
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LayerSpec (layer)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value is the layer of the blocks it loads. -/
theorem pay_eq (x0 x1 : Vec Ideal S10000x128 .f32) (x2 x3 : Vec Ideal S128x128 .f32) (x4 : Vec Ideal S128 .f32) :
    k0_pay1 (F := Ideal) x0 x1 x2 x3 x4 = layer (n := 10000) (d := 128) (e := 128) x0 x1 x2 x3 x4 := by
  unfold k0_pay1
  simp only [shapeCast_self]
  exact Cert.LayerSpec.unit_layer dot_S10000x128_S128x128_S10000x128_1_0_0_1_n_n.wf none x0 x1 x2 x3 x4 bitsLt_bf16_f32
    shapeCasts_S128_S1x128 broadcasts_S1x128_S10000x128

/-- The windows' block indices over the grid: the two row operands move with the output along the rows, every other
    block index is zero. -/
theorem idx_facts : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (1 : Fin 2) = 0 :=
  (by decide +kernel : ∀ t : Fin grid0.N, _)

/-- Every block of rows is some point's. -/
theorem idx_onto : ∀ q : Fin 10, ∃ t : Fin cfg0.N, win0_5.index t = ![q.val, 0] :=
  (by decide +kernel : ∀ q : Fin 10, ∃ t : Fin grid0.N, win0_5.index t = ![q.val, 0])

/-- The weight and bias windows stage their arrays whole. -/
theorem iblk_2 (c : Dev nD) (t : Fin cfg0.N) : iblk0 V c 2 t = V c main_v15 := by
  funext y
  show V c main_v15 (((cfg0.win 2).blk t).view.emb y) = V c main_v15 y
  refine congrArg (V c main_v15) ?_
  obtain ⟨e0, e1, e2, e3, e4, e5, e6, e7, e8, e9⟩ := idx_facts t
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

theorem iblk_3 (c : Dev nD) (t : Fin cfg0.N) : iblk0 V c 3 t = V c main_v17 := by
  funext y
  show V c main_v17 (((cfg0.win 3).blk t).view.emb y) = V c main_v17 y
  refine congrArg (V c main_v17) ?_
  obtain ⟨e0, e1, e2, e3, e4, e5, e6, e7, e8, e9⟩ := idx_facts t
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem iblk_4 (c : Dev nD) (t : Fin cfg0.N) : iblk0 V c 4 t = V c main_v19 := by
  funext y
  show V c main_v19 (((cfg0.win 4).blk t).view.emb y) = V c main_v19 y
  refine congrArg (V c main_v19) ?_
  obtain ⟨e0, e1, e2, e3, e4, e5, e6, e7, e8, e9⟩ := idx_facts t
  funext a; apply Fin.ext
  match a with
  | ⟨0, _⟩ => show win0_4.index t (0 : Fin 1) * 128 + 1 * (y 0).val = (y 0).val; omega

/-- What point t writes back is block t of the layer of the arrays as the region finds them. -/
theorem flushed_eq (c : Dev nD) (t : Fin cfg0.N) :
    (dat0 (F := Ideal) V c).flushed 5 t = ((cfg0.win 5).blk t).view.read (Elt Ideal)
      (layer (n := 100000) (d := 128) (e := 128) (V c main_v13) (V c main_arg0) (V c main_v15) (V c main_v17) (V c main_v19)) := by
  show (cfg0.win 5).cut (grid0.coords t) ((dat0 V c).after 5 t) = _
  rw [after0_5]
  unfold out0_5
  rw [View.canon_unit_zero hz2]
  simp only [View.ld_unit_zero (S := S10000x128) hz2, View.ld_unit_zero (S := S128x128) hz2, View.ld_unit_zero (S := S128) hz1]
  rw [pay_eq, iblk_2, iblk_3, iblk_4]
  obtain ⟨e0, e1, e2, e3, e4, e5, e6, e7, e8, e9⟩ := idx_facts t
  funext j
  show layer (n := 10000) (d := 128) (e := 128) (iblk0 V c 0 t) (iblk0 V c 1 t) (V c main_v15) (V c main_v17) (V c main_v19) j
    = layer (n := 100000) (d := 128) (e := 128) (V c main_v13) (V c main_arg0) (V c main_v15) (V c main_v17) (V c main_v19) (((cfg0.win 5).blk t).view.emb j)
  refine Cert.LayerSpec.layer_congr _ _ _ _ _ _ _ j _ (fun k => ?_) (fun k => ?_) ?_
  · show V c main_v13 (((cfg0.win 0).blk t).view.emb (ix2 (n0 := 10000) (j 0) k)) = V c main_v13 (ix2 (n0 := 100000) ((((cfg0.win 5).blk t).view.emb j) 0) k)
    refine congrArg (V c main_v13) ?_
    funext a; apply Fin.ext
    match a with
    | ⟨0, _⟩ => show win0_0.index t (0 : Fin 2) * 10000 + 1 * (j 0).val = win0_5.index t (0 : Fin 2) * 10000 + 1 * (j 0).val; omega
    | ⟨1, _⟩ => show win0_0.index t (1 : Fin 2) * 128 + 1 * k.val = k.val; omega
  · show V c main_arg0 (((cfg0.win 1).blk t).view.emb (ix2 (n0 := 10000) (j 0) k)) = V c main_arg0 (ix2 (n0 := 100000) ((((cfg0.win 5).blk t).view.emb j) 0) k)
    refine congrArg (V c main_arg0) ?_
    funext a; apply Fin.ext
    match a with
    | ⟨0, _⟩ => show win0_1.index t (0 : Fin 2) * 10000 + 1 * (j 0).val = win0_5.index t (0 : Fin 2) * 10000 + 1 * (j 0).val; omega
    | ⟨1, _⟩ => show win0_1.index t (1 : Fin 2) * 128 + 1 * k.val = k.val; omega
  · apply Fin.ext
    show (j 1).val = win0_5.index t (1 : Fin 2) * 128 + 1 * (j 1).val
    omega

/-- An index of the output array is in point t's block iff each coordinate is in the block's range on its axis. -/
theorem mem_blk (t : Fin cfg0.N) (i : S100000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v20).slice (win0_5.rect t)).set ↔ _
  rw [View.set_slice_whole, Rect.mem_set_unit]
  exact Iff.rfl

/-- The ten blocks of rows tile the output: row r is in the block of point r / 10000. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 128 ≤ (i 1).val ∧ (i 1).val < win0_5.index t (1 : Fin 2) * 128 + 128; omega

/-- THE OUTPUT ARRAY after the region: the layer of the arrays the region found at entry. -/
theorem value (c : Dev nD) : (dat0 (F := Ideal) V c).arrAt 5 cfg0.N
    = layer (n := 100000) (d := 128) (e := 128) (V c main_v13) (V c main_arg0) (V c main_v15) (V c main_v17) (V c main_v19) :=
  (dat0 (F := Ideal) V c).arrAt_eq_of_cover 5 _ (fun t _ => flushed_eq V c t) cover

end Cert.KernelIdeal.Region0

end
-- ==== Proof.Region1.lean ====
/-
  Region 1 of @main, one layer of the network, as a whole-array function of the arrays the region finds at entry.
  The grid has ten points; point t stages rows 10000·t … 10000·t + 9999 of the aggregated neighbours and of the nodes,
  the two weight matrices and the bias whole, and writes back the same rows of the output. The body computes the layer
  on its block of rows, and a row of a layer reads only that row of its two row operands, so each block written back is
  the block of the layer of the whole arrays; the ten blocks tile the output.
-/
import proofs.«133446_j51754355916837_1_alg».proof.Proof.Gen.KernelIdeal.Frame
import proofs.«133446_j51754355916837_1_alg».proof.Proof.LayerSpec
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LayerSpec (layer)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value is the layer of the blocks it loads. -/
theorem pay_eq (x0 x1 : Vec Ideal S10000x128 .f32) (x2 x3 : Vec Ideal S128x128 .f32) (x4 : Vec Ideal S128 .f32) :
    k1_pay1 (F := Ideal) x0 x1 x2 x3 x4 = layer (n := 10000) (d := 128) (e := 128) x0 x1 x2 x3 x4 := by
  unfold k1_pay1
  simp only [shapeCast_self]
  exact Cert.LayerSpec.unit_layer dot_S10000x128_S128x128_S10000x128_1_0_0_1_n_n.wf none x0 x1 x2 x3 x4 bitsLt_bf16_f32
    shapeCasts_S128_S1x128 broadcasts_S1x128_S10000x128

/-- The windows' block indices over the grid: the two row operands move with the output along the rows, every other
    block index is zero. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (1 : Fin 2) = 0 :=
  (by decide +kernel : ∀ t : Fin grid1.N, _)

/-- Every block of rows is some point's. -/
theorem idx_onto : ∀ q : Fin 10, ∃ t : Fin cfg1.N, win1_5.index t = ![q.val, 0] :=
  (by decide +kernel : ∀ q : Fin 10, ∃ t : Fin grid1.N, win1_5.index t = ![q.val, 0])

/-- The weight and bias windows stage their arrays whole. -/
theorem iblk_2 (c : Dev nD) (t : Fin cfg1.N) : iblk1 V c 2 t = V c main_v32 := by
  funext y
  show V c main_v32 (((cfg1.win 2).blk t).view.emb y) = V c main_v32 y
  refine congrArg (V c main_v32) ?_
  obtain ⟨e0, e1, e2, e3, e4, e5, e6, e7, e8, e9⟩ := idx_facts t
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem iblk_3 (c : Dev nD) (t : Fin cfg1.N) : iblk1 V c 3 t = V c main_v34 := by
  funext y
  show V c main_v34 (((cfg1.win 3).blk t).view.emb y) = V c main_v34 y
  refine congrArg (V c main_v34) ?_
  obtain ⟨e0, e1, e2, e3, e4, e5, e6, e7, e8, e9⟩ := idx_facts t
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

theorem iblk_4 (c : Dev nD) (t : Fin cfg1.N) : iblk1 V c 4 t = V c main_v36 := by
  funext y
  show V c main_v36 (((cfg1.win 4).blk t).view.emb y) = V c main_v36 y
  refine congrArg (V c main_v36) ?_
  obtain ⟨e0, e1, e2, e3, e4, e5, e6, e7, e8, e9⟩ := idx_facts t
  funext a; apply Fin.ext
  match a with
  | ⟨0, _⟩ => show win1_4.index t (0 : Fin 1) * 128 + 1 * (y 0).val = (y 0).val; omega

/-- What point t writes back is block t of the layer of the arrays as the region finds them. -/
theorem flushed_eq (c : Dev nD) (t : Fin cfg1.N) :
    (dat1 (F := Ideal) V c).flushed 5 t = ((cfg1.win 5).blk t).view.read (Elt Ideal)
      (layer (n := 100000) (d := 128) (e := 128) (V c main_v30) (V c main_v20) (V c main_v32) (V c main_v34) (V c main_v36)) := by
  show (cfg1.win 5).cut (grid1.coords t) ((dat1 V c).after 5 t) = _
  rw [after1_5]
  unfold out1_5
  rw [View.canon_unit_zero hz2]
  simp only [View.ld_unit_zero (S := S10000x128) hz2, View.ld_unit_zero (S := S128x128) hz2, View.ld_unit_zero (S := S128) hz1]
  rw [pay_eq, iblk_2, iblk_3, iblk_4]
  obtain ⟨e0, e1, e2, e3, e4, e5, e6, e7, e8, e9⟩ := idx_facts t
  funext j
  show layer (n := 10000) (d := 128) (e := 128) (iblk1 V c 0 t) (iblk1 V c 1 t) (V c main_v32) (V c main_v34) (V c main_v36) j
    = layer (n := 100000) (d := 128) (e := 128) (V c main_v30) (V c main_v20) (V c main_v32) (V c main_v34) (V c main_v36) (((cfg1.win 5).blk t).view.emb j)
  refine Cert.LayerSpec.layer_congr _ _ _ _ _ _ _ j _ (fun k => ?_) (fun k => ?_) ?_
  · show V c main_v30 (((cfg1.win 0).blk t).view.emb (ix2 (n0 := 10000) (j 0) k)) = V c main_v30 (ix2 (n0 := 100000) ((((cfg1.win 5).blk t).view.emb j) 0) k)
    refine congrArg (V c main_v30) ?_
    funext a; apply Fin.ext
    match a with
    | ⟨0, _⟩ => show win1_0.index t (0 : Fin 2) * 10000 + 1 * (j 0).val = win1_5.index t (0 : Fin 2) * 10000 + 1 * (j 0).val; omega
    | ⟨1, _⟩ => show win1_0.index t (1 : Fin 2) * 128 + 1 * k.val = k.val; omega
  · show V c main_v20 (((cfg1.win 1).blk t).view.emb (ix2 (n0 := 10000) (j 0) k)) = V c main_v20 (ix2 (n0 := 100000) ((((cfg1.win 5).blk t).view.emb j) 0) k)
    refine congrArg (V c main_v20) ?_
    funext a; apply Fin.ext
    match a with
    | ⟨0, _⟩ => show win1_1.index t (0 : Fin 2) * 10000 + 1 * (j 0).val = win1_5.index t (0 : Fin 2) * 10000 + 1 * (j 0).val; omega
    | ⟨1, _⟩ => show win1_1.index t (1 : Fin 2) * 128 + 1 * k.val = k.val; omega
  · apply Fin.ext
    show (j 1).val = win1_5.index t (1 : Fin 2) * 128 + 1 * (j 1).val
    omega

/-- An index of the output array is in point t's block iff each coordinate is in the block's range on its axis. -/
theorem mem_blk (t : Fin cfg1.N) (i : S100000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v37).slice (win1_5.rect t)).set ↔ _
  rw [View.set_slice_whole, Rect.mem_set_unit]
  exact Iff.rfl

/-- The ten blocks of rows tile the output: row r is in the block of point r / 10000. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  obtain ⟨t, ht⟩ := idx_onto ⟨(i 0).val / 10000, by omega⟩
  have q0 : win1_5.index t (0 : Fin 2) = (i 0).val / 10000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 10000 ≤ (i 0).val ∧ (i 0).val < win1_5.index t (0 : Fin 2) * 10000 + 10000; omega
  | ⟨1, _⟩ => show win1_5.index t (1 : Fin 2) * 128 ≤ (i 1).val ∧ (i 1).val < win1_5.index t (1 : Fin 2) * 128 + 128; omega

/-- THE OUTPUT ARRAY after the region: the layer of the arrays the region found at entry. -/
theorem value (c : Dev nD) : (dat1 (F := Ideal) V c).arrAt 5 cfg1.N
    = layer (n := 100000) (d := 128) (e := 128) (V c main_v30) (V c main_v20) (V c main_v32) (V c main_v34) (V c main_v36) :=
  (dat1 (F := Ideal) V c).arrAt_eq_of_cover 5 _ (fun t _ => flushed_eq V c t) cover

end Cert.KernelIdeal.Region1

end
-- ==== Proof.Region2.lean ====
/-
  Region 2 of @main, one layer of the network, as a whole-array function of the arrays the region finds at entry.
  The grid has ten points; point t stages rows 10000·t … 10000·t + 9999 of the aggregated neighbours and of the nodes,
  the two weight matrices and the bias whole, and writes back the same rows of the output. The body computes the layer
  on its block of rows, and a row of a layer reads only that row of its two row operands, so each block written back is
  the block of the layer of the whole arrays; the ten blocks tile the output.
-/
import proofs.«133446_j51754355916837_1_alg».proof.Proof.Gen.KernelIdeal.Frame
import proofs.«133446_j51754355916837_1_alg».proof.Proof.LayerSpec
import Idealize.ShloMosaic.Lib.Pipeline.Value
import Idealize.ShloMosaic.Lib.ValueIdx

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.LayerSpec (layer)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value is the layer of the blocks it loads. -/
theorem pay_eq (x0 x1 : Vec Ideal S10000x128 .f32) (x2 x3 : Vec Ideal S128x128 .f32) (x4 : Vec Ideal S128 .f32) :
    k2_pay1 (F := Ideal) x0 x1 x2 x3 x4 = layer (n := 10000) (d := 128) (e := 128) x0 x1 x2 x3 x4 := by
  unfold k2_pay1
  simp only [shapeCast_self]
  exact Cert.LayerSpec.unit_layer dot_S10000x128_S128x128_S10000x128_1_0_0_1_n_n.wf none x0 x1 x2 x3 x4 bitsLt_bf16_f32
    shapeCasts_S128_S1x128 broadcasts_S1x128_S10000x128

/-- The windows' block indices over the grid: the two row operands move with the output along the rows, every other
    block index is zero. -/
theorem idx_facts : ∀ t : Fin cfg2.N, win2_0.index t (0 : Fin 2) = win2_5.index t (0 : Fin 2)
    ∧ win2_0.index t (1 : Fin 2) = 0
    ∧ win2_1.index t (0 : Fin 2) = win2_5.index t (0 : Fin 2)
    ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (1 : Fin 2) = 0 :=
  (by decide +kernel : ∀ t : Fin grid2.N, _)

/-- Every block of rows is some point's. -/
theorem idx_onto : ∀ q : Fin 10, ∃ t : Fin cfg2.N, win2_5.index t = ![q.val, 0] :=
  (by decide +kernel : ∀ q : Fin 10, ∃ t : Fin grid2.N, win2_5.index t = ![q.val, 0])

/-- The weight and bias windows stage their arrays whole. -/
theorem iblk_2 (c : Dev nD) (t : Fin cfg2.N) : iblk2 V c 2 t = V c main_v49 := by
  funext y
  show V c main_v49 (((cfg2.win 2).blk t).view.emb y) = V c main_v49 y
  refine congrArg (V c main_v49) ?_
  obtain ⟨e0, e1, e2, e3, e4, e5, e6, e7, e8, e9⟩ := idx_facts t
  funext a; apply Fin.ext
  match a with
  | ⟨0, _⟩ => show win2_2.index t (0 : Fin 2) * 128 + 1 * (y 0).val = (y 0).val; omega
  | ⟨1, _⟩ => show win2_2.index t (1 : Fin 2) * 128 + 1 * (y 1).val = (y 1).val; omega

theorem iblk_3 (c : Dev nD) (t : Fin cfg2.N) : iblk2 V c 3 t = V c main_v51 := by
  funext y
  show V c main_v51 (((cfg2.win 3).blk t).view.emb y) = V c main_v51 y
  refine congrArg (V c main_v51) ?_
  obtain ⟨e0, e1, e2, e3, e4, e5, e6, e7, e8, e9⟩ := idx_facts t
  funext a; apply Fin.ext
  match a with
  | ⟨0, _⟩ => show win2_3.index t (0 : Fin 2) * 128 + 1 * (y 0).val = (y 0).val; omega
  | ⟨1, _⟩ => show win2_3.index t (1 : Fin 2) * 128 + 1 * (y 1).val = (y 1).val; omega

theorem iblk_4 (c : Dev nD) (t : Fin cfg2.N) : iblk2 V c 4 t = V c main_v53 := by
  funext y
  show V c main_v53 (((cfg2.win 4).blk t).view.emb y) = V c main_v53 y
  refine congrArg (V c main_v53) ?_
  obtain ⟨e0, e1, e2, e3, e4, e5, e6, e7, e8, e9⟩ := idx_facts t
  funext a; apply Fin.ext
  match a with
  | ⟨0, _⟩ => show win2_4.index t (0 : Fin 1) * 128 + 1 * (y 0).val = (y 0).val; omega

/-- What point t writes back is block t of the layer of the arrays as the region finds them. -/
theorem flushed_eq (c : Dev nD) (t : Fin cfg2.N) :
    (dat2 (F := Ideal) V c).flushed 5 t = ((cfg2.win 5).blk t).view.read (Elt Ideal)
      (layer (n := 100000) (d := 128) (e := 128) (V c main_v47) (V c main_v37) (V c main_v49) (V c main_v51) (V c main_v53)) := by
  show (cfg2.win 5).cut (grid2.coords t) ((dat2 V c).after 5 t) = _
  rw [after2_5]
  unfold out2_5
  rw [View.canon_unit_zero hz2]
  simp only [View.ld_unit_zero (S := S10000x128) hz2, View.ld_unit_zero (S := S128x128) hz2, View.ld_unit_zero (S := S128) hz1]
  rw [pay_eq, iblk_2, iblk_3, iblk_4]
  obtain ⟨e0, e1, e2, e3, e4, e5, e6, e7, e8, e9⟩ := idx_facts t
  funext j
  show layer (n := 10000) (d := 128) (e := 128) (iblk2 V c 0 t) (iblk2 V c 1 t) (V c main_v49) (V c main_v51) (V c main_v53) j
    = layer (n := 100000) (d := 128) (e := 128) (V c main_v47) (V c main_v37) (V c main_v49) (V c main_v51) (V c main_v53) (((cfg2.win 5).blk t).view.emb j)
  refine Cert.LayerSpec.layer_congr _ _ _ _ _ _ _ j _ (fun k => ?_) (fun k => ?_) ?_
  · show V c main_v47 (((cfg2.win 0).blk t).view.emb (ix2 (n0 := 10000) (j 0) k)) = V c main_v47 (ix2 (n0 := 100000) ((((cfg2.win 5).blk t).view.emb j) 0) k)
    refine congrArg (V c main_v47) ?_
    funext a; apply Fin.ext
    match a with
    | ⟨0, _⟩ => show win2_0.index t (0 : Fin 2) * 10000 + 1 * (j 0).val = win2_5.index t (0 : Fin 2) * 10000 + 1 * (j 0).val; omega
    | ⟨1, _⟩ => show win2_0.index t (1 : Fin 2) * 128 + 1 * k.val = k.val; omega
  · show V c main_v37 (((cfg2.win 1).blk t).view.emb (ix2 (n0 := 10000) (j 0) k)) = V c main_v37 (ix2 (n0 := 100000) ((((cfg2.win 5).blk t).view.emb j) 0) k)
    refine congrArg (V c main_v37) ?_
    funext a; apply Fin.ext
    match a with
    | ⟨0, _⟩ => show win2_1.index t (0 : Fin 2) * 10000 + 1 * (j 0).val = win2_5.index t (0 : Fin 2) * 10000 + 1 * (j 0).val; omega
    | ⟨1, _⟩ => show win2_1.index t (1 : Fin 2) * 128 + 1 * k.val = k.val; omega
  · apply Fin.ext
    show (j 1).val = win2_5.index t (1 : Fin 2) * 128 + 1 * (j 1).val
    omega

/-- An index of the output array is in point t's block iff each coordinate is in the block's range on its axis. -/
theorem mem_blk (t : Fin cfg2.N) (i : S100000x128.Idx) :
    i ∈ ((cfg2.win 5).blk t).view.set ↔ ∀ a : Fin 2, win2_5.index t a * S10000x128.size a ≤ (i a).val ∧ (i a).val < win2_5.index t a * S10000x128.size a + S10000x128.size a := by
  show i ∈ ((View.whole main_v54).slice (win2_5.rect t)).set ↔ _
  rw [View.set_slice_whole, Rect.mem_set_unit]
  exact Iff.rfl

/-- The ten blocks of rows tile the output: row r is in the block of point r / 10000. -/
theorem cover (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := idx_onto ⟨(i 0).val / 10000, by omega⟩
  have q0 : win2_5.index t (0 : Fin 2) = (i 0).val / 10000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 10000 ≤ (i 0).val ∧ (i 0).val < win2_5.index t (0 : Fin 2) * 10000 + 10000; omega
  | ⟨1, _⟩ => show win2_5.index t (1 : Fin 2) * 128 ≤ (i 1).val ∧ (i 1).val < win2_5.index t (1 : Fin 2) * 128 + 128; omega

/-- THE OUTPUT ARRAY after the region: the layer of the arrays the region found at entry. -/
theorem value (c : Dev nD) : (dat2 (F := Ideal) V c).arrAt 5 cfg2.N
    = layer (n := 100000) (d := 128) (e := 128) (V c main_v47) (V c main_v37) (V c main_v49) (V c main_v51) (V c main_v53) :=
  (dat2 (F := Ideal) V c).arrAt_eq_of_cover 5 _ (fun t _ => flushed_eq V c t) cover

end Cert.KernelIdeal.Region2

end
-- ==== Proof.LibRowOps.lean ====
/-
  The vector-unit operations a row-wise kernel body is made of, read at an index, at any sizes: the sum along the
  rows of a matrix, the grand total of a one-row matrix taken out as a scalar, and the row of a matrix that a
  unit-stride rectangle of one row loads.
-/
import Idealize.ShloMosaic.Lib.Pipeline.Value
import Idealize.ShloMosaic.Lib.Pipeline.FrameBody
import Idealize.ShloMosaic.Lib.ValueIdx
import Idealize.ShloMosaic.Lib.ValueLayout
import Idealize.ShloMosaic.PureOps.Ideal.Laws
import proofs.«133446_j51754355916837_1_alg».proof.Proof.LibColumn

noncomputable section

namespace Cert.LibRowOps

open Idealize.ShloMosaic Idealize.ShloMosaic.ValueIdx

/-- The sum along axis 1 of an `[a, b]` matrix from a zero accumulator, read at row `p`: the sum of the row's entries. -/
theorem rowSums_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  show ∑ k : Fin b, v (h.lift (ix1 p) k) = _
  refine Finset.sum_congr rfl fun k _ => congrArg v ?_
  funext d
  match d with
  | ⟨0, _⟩ => rfl
  | ⟨1, _⟩ => rfl

/-- The same sum kept as a column `[a, 1]`, read at `(p, u)`. -/
theorem rowSums_column_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (hc : (⟨1, ![a]⟩ : Shape).ShapeCasts ⟨2, ![a, 1]⟩)
    (p : Fin a) (u : Fin 1) :
    shapeCast ⟨2, ![a, 1]⟩ (multiReduction .add [1] ⟨1, ![a]⟩ v 0x00000000#32 h hφ hacc) hc (ix2 p u)
      = ∑ k : Fin b, v (ix2 p k) :=
  (Cert.LibColumn.shapeCast_a_a1_apply _ hc p u).trans (rowSums_apply v h hφ hacc p)

/-- The grand total of a one-row matrix `[1, b]`: summed along its row into `[1]`, cast to `[1, 1]` and taken out
    as a scalar, it is the sum of the row's entries. -/
theorem rowTotal_extract {b : ℕ} (u : FVec Ideal ⟨2, ![1, b]⟩ .f32)
    (h : (⟨2, ![1, b]⟩ : Shape).Reduces [1] ⟨1, ![1]⟩) (hφ : FKind.Formats .f32)
    (hacc : (0x00000000#32 : BitVec 32) = 0x00000000#32) (hc : (⟨1, ![1]⟩ : Shape).ShapeCasts ⟨2, ![1, 1]⟩)
    (hp : ∀ a, (![0, 0] : Fin 2 → Nat) a < (⟨2, ![1, 1]⟩ : Shape).size a) :
    extractAt ![0, 0] (shapeCast ⟨2, ![1, 1]⟩ (multiReduction .add [1] ⟨1, ![1]⟩ u 0x00000000#32 h hφ hacc) hc) hp
      = ∑ k : Fin b, u (ix2 (0 : Fin 1) k) := by
  have e : (fun a => ⟨(![0, 0] : Fin 2 → Nat) a, hp a⟩ : (⟨2, ![1, 1]⟩ : Shape).Idx) = ix2 (0 : Fin 1) (0 : Fin 1) :=
    funext fun d => match d with | ⟨0, _⟩ => rfl | ⟨1, _⟩ => rfl
  unfold extractAt
  rw [e]
  exact rowSums_column_apply u h hφ hacc hc 0 0

/-- What the unit-stride rectangle at `(l, 0)` of extent `[1, b]` loads of an `[n, b]` matrix: its row `l`. -/
theorem ld_row_eq {Val : EltTy → Type} {e : EltTy} {n b : ℕ} (x : (⟨2, ![n, b]⟩ : Shape).Idx → Val e) (l : ℕ)
    (inb : ∀ a, (![l, 0] : Fin 2 → Nat) a + (![1, b] : Fin 2 → Nat) a ≤ (⟨2, ![n, b]⟩ : Shape).size a) :
    View.ld x (Rect.unit (s := ⟨2, ![n, b]⟩) ![l, 0] ![1, b] inb)
      = fun i => x (ix2 (⟨l, Nat.lt_of_succ_le (inb 0)⟩ : Fin n) (⟨(i 1).val, (i 1).isLt⟩ : Fin b)) := by
  funext i
  show x ((Rect.unit (s := ⟨2, ![n, b]⟩) ![l, 0] ![1, b] inb).idx i) = _
  refine congrArg x (funext fun d => ?_)
  have h0 : (i 0).val < 1 := (i 0).isLt
  match d with
  | ⟨0, _⟩ => exact Fin.ext (by show l + 1 * (i 0).val = l; omega)
  | ⟨1, _⟩ => exact Fin.ext (by show 0 + 1 * (i 1).val = (i 1).val; omega)

/-- A vector `w` laid along every row of an `[a, b]` matrix `x`, multiplied into it entry by entry and summed along
    the rows, kept as a column: entry `(p, u)` is  Σ_k w k · x (p, k). -/
theorem weightedRowSums_column_apply {a b : ℕ} (w : FVec Ideal ⟨1, ![b]⟩ .f32) (x : FVec Ideal ⟨2, ![a, b]⟩ .f32)
    (h1 : (⟨1, ![b]⟩ : Shape).ShapeCasts ⟨2, ![1, b]⟩) (h2 : (⟨2, ![1, b]⟩ : Shape).Broadcasts ⟨2, ![a, b]⟩)
    (h : (⟨2, ![a, b]⟩ : Shape).Reduces [1] ⟨1, ![a]⟩) (hφ : FKind.Formats .f32)
    (hacc : (0x00000000#32 : BitVec 32) = 0x00000000#32) (hc : (⟨1, ![a]⟩ : Shape).ShapeCasts ⟨2, ![a, 1]⟩)
    (p : Fin a) (u : Fin 1) :
    shapeCast ⟨2, ![a, 1]⟩ (multiReduction .add [1] ⟨1, ![a]⟩
        (mulf (broadcastTo ⟨2, ![a, b]⟩ (shapeCast ⟨2, ![1, b]⟩ w h1) h2) x) 0x00000000#32 h hφ hacc) hc (ix2 p u)
      = ∑ k : Fin b, w (ix1 k) * x (ix2 p k) := by
  refine (rowSums_column_apply _ h hφ hacc hc p u).trans (Finset.sum_congr rfl fun k _ => ?_)
  show broadcastTo ⟨2, ![a, b]⟩ (shapeCast ⟨2, ![1, b]⟩ w h1) h2 (ix2 p k) * x (ix2 p k) = _
  rw [broadcastTo_1b_ab_apply, shapeCast_a_1a_apply]

/-- The grand total of a vector: laid out as one row, summed, cast to `[1, 1]` and taken out as a scalar. -/
theorem vecTotal_extract {b : ℕ} (v : FVec Ideal ⟨1, ![b]⟩ .f32) (h1 : (⟨1, ![b]⟩ : Shape).ShapeCasts ⟨2, ![1, b]⟩)
    (h : (⟨2, ![1, b]⟩ : Shape).Reduces [1] ⟨1, ![1]⟩) (hφ : FKind.Formats .f32)
    (hacc : (0x00000000#32 : BitVec 32) = 0x00000000#32) (hc : (⟨1, ![1]⟩ : Shape).ShapeCasts ⟨2, ![1, 1]⟩)
    (hp : ∀ a, (![0, 0] : Fin 2 → Nat) a < (⟨2, ![1, 1]⟩ : Shape).size a) :
    extractAt ![0, 0] (shapeCast ⟨2, ![1, 1]⟩
        (multiReduction .add [1] ⟨1, ![1]⟩ (shapeCast ⟨2, ![1, b]⟩ v h1) 0x00000000#32 h hφ hacc) hc) hp
      = ∑ k : Fin b, v (ix1 k) := by
  refine (rowTotal_extract _ h hφ hacc hc hp).trans (Finset.sum_congr rfl fun k _ => ?_)
  exact shapeCast_a_1a_apply v h1 0 k

end Cert.LibRowOps

end
-- ==== Proof.LibLogSoftmax.lean ====
/-
  The logarithm of the softmax along the rows of a matrix, over the extended reals, at any sizes. With m p the largest
  entry of row p (the fold of max from -∞ over the row) and s (p, q) = z (p, q) - m p,

      logSoftmax z (p, q) = s (p, q) - log (sum over k of exp (s (p, k))).

  The vector unit spells it with a lane maximum from -∞, the maxima cast to a column and broadcast along the columns, a
  subtraction, exp, a lane sum from zero cast to a column, log, a broadcast and a subtraction; the host with a reduce by
  maximum from -∞, one more maximum against -∞ (which changes nothing: -∞ is the least extended real), two broadcasts, a
  subtraction, exp, a reduce by sum from zero, a broadcast to a column, log, a broadcast and a subtraction. Both are
  this function: no law of arithmetic is used, only that each spelling reads the same entries in the same order.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value
import proofs.«133446_j51754355916837_1_alg».proof.Proof.LibColumn
import proofs.«133446_j51754355916837_1_alg».proof.Proof.LibRowOps

noncomputable section

namespace Cert.LibLogSoftmax

open Idealize.ShloMosaic Idealize.ShloMosaic.ValueIdx

/-- The largest entry of each row: the fold of max from -∞ over the row's entries. -/
def rowMax {n c : Nat} (z : FVec Ideal ⟨2, ![n, c]⟩ .f32) : FVec Ideal ⟨1, ![n]⟩ .f32 :=
  fun j => (Finset.univ : Finset (Fin c)).fold max (Ideal.ofBits .f32 0xFF800000#32) (fun q => z (ix2 (n0 := n) (j 0) q))

/-- Each entry less its row's largest. -/
def shifted {n c : Nat} (z : FVec Ideal ⟨2, ![n, c]⟩ .f32) : FVec Ideal ⟨2, ![n, c]⟩ .f32 :=
  fun i => z i - rowMax z (ix1 (n := n) (i 0))

/-- s (p, q) - log (sum over k of exp (s (p, k))), s the shifted matrix. -/
def logSoftmax {n c : Nat} (z : FVec Ideal ⟨2, ![n, c]⟩ .f32) : FVec Ideal ⟨2, ![n, c]⟩ .f32 :=
  fun i => shifted z i - Ideal.log (∑ k : Fin c, Ideal.exp (shifted z (ix2 (n0 := n) (i 0) k)))

/-- The coordinate inserted along axis 1 of a row index is the entry's index. -/
theorem lift_eq {n c : Nat} (h : (⟨2, ![n, c]⟩ : Shape).Reduces [1] ⟨1, ![n]⟩) (p : Fin n) (k : Fin c) :
    h.lift (ix1 p) k = ix2 p k := by
  funext d
  match d with
  | ⟨0, _⟩ => rfl
  | ⟨1, _⟩ => rfl

/-- The vector unit's lane maximum from -∞ is the row maximum. -/
theorem unit_rowMax {n c : Nat} (z : FVec Ideal ⟨2, ![n, c]⟩ .f32) (h : (⟨2, ![n, c]⟩ : Shape).Reduces [1] ⟨1, ![n]⟩)
    (hφ : FKind.Formats .f32) (hacc : (0xFF800000#32 : BitVec 32) = 0xFF800000#32) :
    multiReduction .maximumf [1] ⟨1, ![n]⟩ z 0xFF800000#32 h hφ hacc = rowMax z := by
  funext j
  obtain ⟨p, rfl⟩ : ∃ p : Fin n, j = ix1 p := ⟨j 0, eq_ix1 j⟩
  refine (Ideal.multiReduction_maximumf_single z 0xFF800000#32 h hφ hacc (ix1 p)).trans ?_
  show (Finset.univ : Finset (Fin c)).fold max (Ideal.ofBits .f32 0xFF800000#32) (fun k => z (h.lift (ix1 p) k))
    = (Finset.univ : Finset (Fin c)).fold max (Ideal.ofBits .f32 0xFF800000#32) (fun q => z (ix2 p q))
  refine congrArg (fun f => (Finset.univ : Finset (Fin c)).fold max (Ideal.ofBits .f32 0xFF800000#32) f) ?_
  funext k
  exact congrArg z (lift_eq h p k)

/-- The host's reduce by maximum from -∞ is the row maximum. -/
theorem host_rowMax {n c : Nat} (z : FVec Ideal ⟨2, ![n, c]⟩ .f32) (h' : (⟨2, ![n, c]⟩ : Shape).ReducesTo [1] ⟨1, ![n]⟩)
    (h : (⟨2, ![n, c]⟩ : Shape).Reduces [1] ⟨1, ![n]⟩) (hu : 0 < (⟨0, ![]⟩ : Shape).numel) :
    Host.reduce FloatOps.maximumf z (constant (F := Ideal) ⟨0, ![]⟩ .f32 0xFF800000#32) h' hu = rowMax z := by
  funext j
  obtain ⟨p, rfl⟩ : ∃ p : Fin n, j = ix1 p := ⟨j 0, eq_ix1 j⟩
  refine (Host.reduce_eq_fold_single FloatOps.maximumf z _ h' h hu (ix1 p)).trans ?_
  show (Finset.univ : Finset (Fin c)).fold max (Ideal.ofBits .f32 0xFF800000#32) (fun k => z (h.lift (ix1 p) k))
    = (Finset.univ : Finset (Fin c)).fold max (Ideal.ofBits .f32 0xFF800000#32) (fun q => z (ix2 p q))
  refine congrArg (fun f => (Finset.univ : Finset (Fin c)).fold max (Ideal.ofBits .f32 0xFF800000#32) f) ?_
  funext k
  exact congrArg z (lift_eq h p k)

/-- A maximum against -∞ broadcast to the shape changes nothing. -/
theorem max_neg_inf {s : Shape} (r : FVec Ideal s .f32) (h0 : (⟨0, ![]⟩ : Shape).BroadcastsInDim s (![] : Fin 0 → Fin s.rank)) :
    maximumf (broadcastInDim s ![] h0 (constant (F := Ideal) ⟨0, ![]⟩ .f32 0xFF800000#32)) r = r := by
  funext j
  show max (broadcastInDim s ![] h0 (constant (F := Ideal) ⟨0, ![]⟩ .f32 0xFF800000#32) j) (r j) = r j
  rw [broadcastInDim_apply _ h0 _ j ix0 (fun a => a.elim0)]
  show max (Ideal.ofBits .f32 0xFF800000#32) (r j) = r j
  have e : Ideal.ofBits .f32 0xFF800000#32 = (⊥ : EReal) := by simp [Ideal.ofBits, Ideal.ieee]
  rw [e]
  exact max_eq_right bot_le

/-- A vector over the rows cast to a column and broadcast along the columns, read at (p, q): its entry p. -/
theorem unit_col_apply {α : Type} {n c : Nat} (r : (⟨1, ![n]⟩ : Shape).Idx → α)
    (hc : (⟨1, ![n]⟩ : Shape).ShapeCasts ⟨2, ![n, 1]⟩) (hb : (⟨2, ![n, 1]⟩ : Shape).Broadcasts ⟨2, ![n, c]⟩) (p : Fin n) (q : Fin c) :
    broadcastTo ⟨2, ![n, c]⟩ (shapeCast ⟨2, ![n, 1]⟩ r hc) hb (ix2 p q) = r (ix1 p) := by
  rw [Cert.LibColumn.broadcastTo_a1_ab_apply, Cert.LibColumn.shapeCast_a_a1_apply]

/-- The host's broadcast of a vector over the rows to a column, read at (p, u): its entry p. -/
theorem host_toCol_apply {α : Type} {n : Nat} (r : (⟨1, ![n]⟩ : Shape).Idx → α)
    (h1 : (⟨1, ![n]⟩ : Shape).BroadcastsInDim ⟨2, ![n, 1]⟩ (![0] : Fin 1 → Fin 2)) (p : Fin n) (u : Fin 1) :
    broadcastInDim ⟨2, ![n, 1]⟩ ![0] h1 r (ix2 p u) = r (ix1 p) := by
  refine broadcastInDim_apply _ h1 r (ix2 p u) (ix1 p) fun a => ?_
  match a with
  | ⟨0, _⟩ =>
    show p.val = if n = 1 then 0 else p.val
    split
    · have := p.isLt; omega
    · rfl

/-- The host's broadcast of a column along the columns, read at (p, q): the column's entry of row p. -/
theorem host_colAlong_apply {α : Type} {n c : Nat} (v : (⟨2, ![n, 1]⟩ : Shape).Idx → α)
    (h2 : (⟨2, ![n, 1]⟩ : Shape).BroadcastsInDim ⟨2, ![n, c]⟩ (![0, 1] : Fin 2 → Fin 2)) (p : Fin n) (q : Fin c) :
    broadcastInDim ⟨2, ![n, c]⟩ ![0, 1] h2 v (ix2 p q) = v (ix2 p (0 : Fin 1)) := by
  refine broadcastInDim_apply _ h2 v (ix2 p q) (ix2 p (0 : Fin 1)) fun a => ?_
  match a with
  | ⟨0, _⟩ =>
    show p.val = if n = 1 then 0 else p.val
    split
    · have := p.isLt; omega
    · rfl
  | ⟨1, _⟩ => rfl

/-- The vector unit's spelling of the shifted matrix. -/
theorem unit_shifted {n c : Nat} (z : FVec Ideal ⟨2, ![n, c]⟩ .f32) (h : (⟨2, ![n, c]⟩ : Shape).Reduces [1] ⟨1, ![n]⟩)
    (hφ : FKind.Formats .f32) (hmax : (0xFF800000#32 : BitVec 32) = 0xFF800000#32)
    (hc : (⟨1, ![n]⟩ : Shape).ShapeCasts ⟨2, ![n, 1]⟩) (hb : (⟨2, ![n, 1]⟩ : Shape).Broadcasts ⟨2, ![n, c]⟩) :
    subf z (broadcastTo ⟨2, ![n, c]⟩ (shapeCast ⟨2, ![n, 1]⟩ (multiReduction .maximumf [1] ⟨1, ![n]⟩ z 0xFF800000#32 h hφ hmax) hc) hb)
      = shifted z := by
  funext i
  obtain ⟨p, q, rfl⟩ : ∃ (p : Fin n) (q : Fin c), i = ix2 p q := ⟨i 0, i 1, eq_ix2 i⟩
  show z (ix2 p q) - _ = z (ix2 p q) - rowMax z (ix1 p)
  rw [unit_col_apply, unit_rowMax]

/-- The vector unit's spelling of the logarithm of the softmax along the rows. -/
theorem unit_logSoftmax {n c : Nat} (z : FVec Ideal ⟨2, ![n, c]⟩ .f32) (h : (⟨2, ![n, c]⟩ : Shape).Reduces [1] ⟨1, ![n]⟩)
    (hφ : FKind.Formats .f32) (hmax : (0xFF800000#32 : BitVec 32) = 0xFF800000#32)
    (hadd : (0x00000000#32 : BitVec 32) = 0x00000000#32)
    (hc : (⟨1, ![n]⟩ : Shape).ShapeCasts ⟨2, ![n, 1]⟩) (hb : (⟨2, ![n, 1]⟩ : Shape).Broadcasts ⟨2, ![n, c]⟩) :
    subf (subf z (broadcastTo ⟨2, ![n, c]⟩ (shapeCast ⟨2, ![n, 1]⟩ (multiReduction .maximumf [1] ⟨1, ![n]⟩ z 0xFF800000#32 h hφ hmax) hc) hb))
      (broadcastTo ⟨2, ![n, c]⟩ (log (shapeCast ⟨2, ![n, 1]⟩ (multiReduction .add [1] ⟨1, ![n]⟩
        (exp (subf z (broadcastTo ⟨2, ![n, c]⟩ (shapeCast ⟨2, ![n, 1]⟩ (multiReduction .maximumf [1] ⟨1, ![n]⟩ z 0xFF800000#32 h hφ hmax) hc) hb)))
        0x00000000#32 h hφ hadd) hc)) hb)
      = logSoftmax z := by
  rw [unit_shifted z h hφ hmax hc hb]
  funext i
  obtain ⟨p, q, rfl⟩ : ∃ (p : Fin n) (q : Fin c), i = ix2 p q := ⟨i 0, i 1, eq_ix2 i⟩
  show shifted z (ix2 p q) - _ = shifted z (ix2 p q) - Ideal.log (∑ k : Fin c, Ideal.exp (shifted z (ix2 p k)))
  rw [Cert.LibColumn.broadcastTo_a1_ab_apply]
  show shifted z (ix2 p q) - Ideal.log (shapeCast ⟨2, ![n, 1]⟩ (multiReduction .add [1] ⟨1, ![n]⟩ (exp (shifted z)) 0x00000000#32 h hφ hadd) hc (ix2 p (0 : Fin 1))) = _
  rw [Cert.LibRowOps.rowSums_column_apply (exp (shifted z)) h hφ hadd hc p (0 : Fin 1)]
  rfl

/-- The host's spelling of the shifted matrix. -/
theorem host_shifted {n c : Nat} (z : FVec Ideal ⟨2, ![n, c]⟩ .f32) (h' : (⟨2, ![n, c]⟩ : Shape).ReducesTo [1] ⟨1, ![n]⟩)
    (h : (⟨2, ![n, c]⟩ : Shape).Reduces [1] ⟨1, ![n]⟩) (hu : 0 < (⟨0, ![]⟩ : Shape).numel)
    (h0 : (⟨0, ![]⟩ : Shape).BroadcastsInDim ⟨1, ![n]⟩ (![] : Fin 0 → Fin 1))
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2)) :
    subf z (broadcastInDim ⟨2, ![n, c]⟩ ![0, 1] h2 (broadcastInDim ⟨2, ![n, 1]⟩ ![0] h1
        (maximumf (broadcastInDim ⟨1, ![n]⟩ ![] h0 (constant (F := Ideal) ⟨0, ![]⟩ .f32 0xFF800000#32))
          (Host.reduce FloatOps.maximumf z (constant (F := Ideal) ⟨0, ![]⟩ .f32 0xFF800000#32) h' hu))))
      = shifted z := by
  rw [host_rowMax z h' h hu, max_neg_inf (rowMax z) h0]
  funext i
  obtain ⟨p, q, rfl⟩ : ∃ (p : Fin n) (q : Fin c), i = ix2 p q := ⟨i 0, i 1, eq_ix2 i⟩
  show z (ix2 p q) - _ = z (ix2 p q) - rowMax z (ix1 p)
  rw [host_colAlong_apply, host_toCol_apply]

/-- The host's spelling of the logarithm of the softmax along the rows. -/
theorem host_logSoftmax {n c : Nat} (z : FVec Ideal ⟨2, ![n, c]⟩ .f32) (h' : (⟨2, ![n, c]⟩ : Shape).ReducesTo [1] ⟨1, ![n]⟩)
    (h : (⟨2, ![n, c]⟩ : Shape).Reduces [1] ⟨1, ![n]⟩) (hu : 0 < (⟨0, ![]⟩ : Shape).numel)
    (h0 : (⟨0, ![]⟩ : Shape).BroadcastsInDim ⟨1, ![n]⟩ (![] : Fin 0 → Fin 1))
    (h1 : (⟨1, ![n]⟩ : Shape).BroadcastsInDim ⟨2, ![n, 1]⟩ (![0] : Fin 1 → Fin 2))
    (h2 : (⟨2, ![n, 1]⟩ : Shape).BroadcastsInDim ⟨2, ![n, c]⟩ (![0, 1] : Fin 2 → Fin 2)) :
    subf (subf z (broadcastInDim ⟨2, ![n, c]⟩ ![0, 1] h2 (broadcastInDim ⟨2, ![n, 1]⟩ ![0] h1
        (maximumf (broadcastInDim ⟨1, ![n]⟩ ![] h0 (constant (F := Ideal) ⟨0, ![]⟩ .f32 0xFF800000#32))
          (Host.reduce FloatOps.maximumf z (constant (F := Ideal) ⟨0, ![]⟩ .f32 0xFF800000#32) h' hu)))))
      (broadcastInDim ⟨2, ![n, c]⟩ ![0, 1] h2 (Host.log (broadcastInDim ⟨2, ![n, 1]⟩ ![0] h1
        (Host.reduceAdd (Host.exp (subf z (broadcastInDim ⟨2, ![n, c]⟩ ![0, 1] h2 (broadcastInDim ⟨2, ![n, 1]⟩ ![0] h1
          (maximumf (broadcastInDim ⟨1, ![n]⟩ ![] h0 (constant (F := Ideal) ⟨0, ![]⟩ .f32 0xFF800000#32))
            (Host.reduce FloatOps.maximumf z (constant (F := Ideal) ⟨0, ![]⟩ .f32 0xFF800000#32) h' hu))))))
          (constant (F := Ideal) ⟨0, ![]⟩ .f32 0x00000000#32) h' hu))))
      = logSoftmax z := by
  rw [host_shifted z h' h hu h0 h1 h2]
  funext i
  obtain ⟨p, q, rfl⟩ : ∃ (p : Fin n) (q : Fin c), i = ix2 p q := ⟨i 0, i 1, eq_ix2 i⟩
  show shifted z (ix2 p q) - _ = shifted z (ix2 p q) - Ideal.log (∑ k : Fin c, Ideal.exp (shifted z (ix2 p k)))
  rw [host_colAlong_apply]
  show shifted z (ix2 p q) - Ideal.log (broadcastInDim ⟨2, ![n, 1]⟩ ![0] h1
      (Host.reduceAdd (Host.exp (shifted z)) (constant (F := Ideal) ⟨0, ![]⟩ .f32 0x00000000#32) h' hu) (ix2 p (0 : Fin 1))) = _
  rw [host_toCol_apply]
  refine congrArg (fun t => shifted z (ix2 p q) - Ideal.log t) ?_
  simp only [Host.reduceAdd, Ideal.hostReduceAdd_def]
  rw [Ideal.hostReduceAdd_single h' h]
  show Ideal.ofBits .f32 0x00000000#32 + ∑ k : Fin c, Ideal.exp (shifted z (h.lift (ix1 p) k)) = _
  rw [Ideal.ofBits_zero_f32, zero_add]
  refine Finset.sum_congr rfl fun k _ => ?_
  exact congrArg (fun t => Ideal.exp (shifted z t)) (lift_eq h p k)

end Cert.LibLogSoftmax

end
-- ==== Proof.HeadSpec.lean ====
/-
  The network's head as a whole-array function over the extended reals, at any sizes: from the pooled graphs
  g [n, d], a weight matrix w [d, c] and a bias b [c],

      head g w b = logSoftmax (g · w + b along the rows),

  the logarithm of the softmax along the rows of the logits. The vector unit's and the host's spellings of the logits
  are the same matrix.
-/
import Idealize.ShloMosaic.PureOps.Ideal.Laws
import Idealize.ShloMosaic.Lib.ValueIdx
import Idealize.ShloMosaic.Lib.ValueLayout
import Idealize.ShloMosaic.Lib.Pipeline.Value
import proofs.«133446_j51754355916837_1_alg».proof.Proof.LibLayer
import proofs.«133446_j51754355916837_1_alg».proof.Proof.LibRowBias
import proofs.«133446_j51754355916837_1_alg».proof.Proof.LibUnitOps
import proofs.«133446_j51754355916837_1_alg».proof.Proof.LibLogSoftmax

noncomputable section

namespace Cert.HeadSpec

open Idealize.ShloMosaic Idealize.ShloMosaic.ValueIdx
open Cert.Gcn (prod)
open Cert.LibRowBias (rowBias)
open Cert.LibLogSoftmax (logSoftmax)

/-- logSoftmax (g · w + b along the rows). -/
def head {n d c : Nat} (g : FVec Ideal ⟨2, ![n, d]⟩ .f32) (w : FVec Ideal ⟨2, ![d, c]⟩ .f32) (b : FVec Ideal ⟨1, ![c]⟩ .f32) :
    FVec Ideal ⟨2, ![n, c]⟩ .f32 :=
  logSoftmax (rowBias (prod g w) b)

/-- The vector unit's spelling of the logits. -/
theorem unit_logits {n d c : Nat} (wf : DotDims.WF ⟨2, ![n, d]⟩ ⟨2, ![d, c]⟩ ⟨2, ![n, c]⟩ [1] [0] [0] [1] [] [])
    (prec : Option ContractPrecision) (g : FVec Ideal ⟨2, ![n, d]⟩ .f32) (w : FVec Ideal ⟨2, ![d, c]⟩ .f32)
    (b : FVec Ideal ⟨1, ![c]⟩ .f32) (hb : FTy.bf16.bits < FTy.f32.bits)
    (h1 : (⟨1, ![c]⟩ : Shape).ShapeCasts ⟨2, ![1, c]⟩) (h2 : (⟨2, ![1, c]⟩ : Shape).Broadcasts ⟨2, ![n, c]⟩) :
    addf (matmul (Cert.LibMatmul.plainDims n d c wf) prec (truncf .bf16 g hb) (truncf .bf16 w hb) (constant ⟨2, ![n, c]⟩ .f32 0x00000000#32))
        (broadcastTo ⟨2, ![n, c]⟩ (shapeCast ⟨2, ![1, c]⟩ b h1) h2)
      = rowBias (prod g w) b := by
  rw [Cert.LibUnitOps.unit_matmul wf prec g w hb hb, Cert.LibUnitOps.unit_rowBias (prod g w) b h1 h2]

/-- The host's spelling of the logits. -/
theorem host_logits {n d c : Nat} (wf : DotDims.WF ⟨2, ![n, d]⟩ ⟨2, ![d, c]⟩ ⟨2, ![n, c]⟩ [1] [0] [0] [1] [] [])
    (prec : Option ContractPrecision) (g : FVec Ideal ⟨2, ![n, d]⟩ .f32) (w : FVec Ideal ⟨2, ![d, c]⟩ .f32)
    (b : FVec Ideal ⟨1, ![c]⟩ .f32)
    (h3 : (⟨1, ![c]⟩ : Shape).BroadcastsInDim ⟨2, ![1, c]⟩ (![1] : Fin 1 → Fin 2))
    (h4 : (⟨2, ![1, c]⟩ : Shape).BroadcastsInDim ⟨2, ![n, c]⟩ (![0, 1] : Fin 2 → Fin 2)) :
    addf (Host.dotGeneral (F := Ideal) (Cert.LibMatmul.plainDims n d c wf) prec g w)
        (broadcastInDim ⟨2, ![n, c]⟩ ![0, 1] h4 (broadcastInDim ⟨2, ![1, c]⟩ ![1] h3 b))
      = rowBias (prod g w) b := by
  rw [Cert.Gcn.dotGeneral_plain wf prec g w, Cert.LibRowBias.host_rowBias (prod g w) b h3 h4]

end Cert.HeadSpec

end
-- ==== Proof.Region3.lean ====
/-
  Region 3 of @main, the network's head, as a whole-array function of the arrays the region finds at entry. Its grid
  is one point, which stages the pooled graphs [64, 128], the weight matrix [128, 10] and the bias [10] whole and writes
  the whole output [64, 10]: the logarithm of the softmax along the rows of the logits.
-/
import proofs.«133446_j51754355916837_1_alg».proof.Proof.Gen.KernelIdeal.Frame
import proofs.«133446_j51754355916837_1_alg».proof.Proof.HeadSpec
import Idealize.ShloMosaic.Lib.Pipeline.Value
import Idealize.ShloMosaic.Lib.ValueIdx

set_option maxRecDepth 16384

noncomputable section

namespace Cert.KernelIdeal.Region3

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.HeadSpec (head)
open Cert.Gcn (prod)
open Cert.LibRowBias (rowBias)
open Cert.LibLogSoftmax (logSoftmax)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The body's stored value is the head of the blocks it loads. -/
theorem pay_eq (x0 : Vec Ideal S64x128 .f32) (x1 : Vec Ideal S128x10 .f32) (x2 : Vec Ideal S10 .f32) :
    k3_pay1 (F := Ideal) x0 x1 x2 = head (n := 64) (d := 128) (c := 10) x0 x1 x2 := by
  unfold k3_pay1
  simp only [shapeCast_self]
  have hZ : addf (matmul dot_S64x128_S128x10_S64x10_1_0_0_1_n_n none (truncf .bf16 x0 bitsLt_bf16_f32) (truncf .bf16 x1 bitsLt_bf16_f32) (constant S64x10 .f32 0x00000000#32))
      (broadcastTo S64x10 (shapeCast S1x10 x2 shapeCasts_S10_S1x10) broadcasts_S1x10_S64x10)
      = rowBias (n := 64) (f := 10) (prod (M := 64) (K := 128) (N := 10) x0 x1) x2 :=
    Cert.HeadSpec.unit_logits dot_S64x128_S128x10_S64x10_1_0_0_1_n_n.wf none x0 x1 x2 bitsLt_bf16_f32 shapeCasts_S10_S1x10 broadcasts_S1x10_S64x10
  refine (Cert.LibLogSoftmax.unit_logSoftmax (n := 64) (c := 10)
    (addf (matmul dot_S64x128_S128x10_S64x10_1_0_0_1_n_n none (truncf .bf16 x0 bitsLt_bf16_f32) (truncf .bf16 x1 bitsLt_bf16_f32) (constant S64x10 .f32 0x00000000#32))
      (broadcastTo S64x10 (shapeCast S1x10 x2 shapeCasts_S10_S1x10) broadcasts_S1x10_S64x10))
    reduces_S64x10_S64 (.inl rfl) rfl rfl shapeCasts_S64_S64x1 broadcasts_S64x1_S64x10).trans ?_
  exact congrArg (logSoftmax (n := 64) (c := 10)) hZ

/-- Every block index of the one grid point is zero. -/
theorem idx_facts : ∀ t : Fin cfg3.N, win3_0.index t (0 : Fin 2) = 0 ∧ win3_0.index t (1 : Fin 2) = 0
    ∧ win3_1.index t (0 : Fin 2) = 0 ∧ win3_1.index t (1 : Fin 2) = 0
    ∧ win3_2.index t (0 : Fin 1) = 0
    ∧ win3_3.index t (0 : Fin 2) = 0 ∧ win3_3.index t (1 : Fin 2) = 0 :=
  (by decide +kernel : ∀ t : Fin grid3.N, _)

theorem pt : ∃ t : Fin cfg3.N, True := (by decide +kernel : ∃ t : Fin grid3.N, True)

/-- Each input window stages its array whole. -/
theorem iblk_0 (c : Dev nD) (t : Fin cfg3.N) : iblk3 V c 0 t = V c main_v66 := by
  funext y
  show V c main_v66 (((cfg3.win 0).blk t).view.emb y) = V c main_v66 y
  refine congrArg (V c main_v66) ?_
  obtain ⟨e0, e1, e2, e3, e4, e5, e6⟩ := idx_facts t
  funext a; apply Fin.ext
  match a with
  | ⟨0, _⟩ => show win3_0.index t (0 : Fin 2) * 64 + 1 * (y 0).val = (y 0).val; omega
  | ⟨1, _⟩ => show win3_0.index t (1 : Fin 2) * 128 + 1 * (y 1).val = (y 1).val; omega

theorem iblk_1 (c : Dev nD) (t : Fin cfg3.N) : iblk3 V c 1 t = V c main_arg6 := by
  funext y
  show V c main_arg6 (((cfg3.win 1).blk t).view.emb y) = V c main_arg6 y
  refine congrArg (V c main_arg6) ?_
  obtain ⟨e0, e1, e2, e3, e4, e5, e6⟩ := idx_facts t
  funext a; apply Fin.ext
  match a with
  | ⟨0, _⟩ => show win3_1.index t (0 : Fin 2) * 128 + 1 * (y 0).val = (y 0).val; omega
  | ⟨1, _⟩ => show win3_1.index t (1 : Fin 2) * 10 + 1 * (y 1).val = (y 1).val; omega

theorem iblk_2 (c : Dev nD) (t : Fin cfg3.N) : iblk3 V c 2 t = V c main_arg7 := by
  funext y
  show V c main_arg7 (((cfg3.win 2).blk t).view.emb y) = V c main_arg7 y
  refine congrArg (V c main_arg7) ?_
  obtain ⟨e0, e1, e2, e3, e4, e5, e6⟩ := idx_facts t
  funext a; apply Fin.ext
  match a with
  | ⟨0, _⟩ => show win3_2.index t (0 : Fin 1) * 10 + 1 * (y 0).val = (y 0).val; omega

/-- What the point writes back is the head of the arrays as the region finds them, whole. -/
theorem flushed_eq (c : Dev nD) (t : Fin cfg3.N) :
    (dat3 (F := Ideal) V c).flushed 3 t = ((cfg3.win 3).blk t).view.read (Elt Ideal)
      (head (n := 64) (d := 128) (c := 10) (V c main_v66) (V c main_arg6) (V c main_arg7)) := by
  show (cfg3.win 3).cut (grid3.coords t) ((dat3 V c).after 3 t) = _
  rw [after3_3]
  unfold out3_3
  rw [View.canon_unit_zero hz2]
  simp only [View.ld_unit_zero (S := S64x128) hz2, View.ld_unit_zero (S := S128x10) hz2, View.ld_unit_zero (S := S10) hz1]
  rw [pay_eq, iblk_0, iblk_1, iblk_2]
  obtain ⟨e0, e1, e2, e3, e4, e5, e6⟩ := idx_facts t
  funext j
  show head (n := 64) (d := 128) (c := 10) (V c main_v66) (V c main_arg6) (V c main_arg7) j
    = head (n := 64) (d := 128) (c := 10) (V c main_v66) (V c main_arg6) (V c main_arg7) (((cfg3.win 3).blk t).view.emb j)
  refine congrArg (head (n := 64) (d := 128) (c := 10) (V c main_v66) (V c main_arg6) (V c main_arg7)) ?_
  funext a; apply Fin.ext
  match a with
  | ⟨0, _⟩ => show (j 0).val = win3_3.index t (0 : Fin 2) * 64 + 1 * (j 0).val; omega
  | ⟨1, _⟩ => show (j 1).val = win3_3.index t (1 : Fin 2) * 10 + 1 * (j 1).val; omega

/-- An index of the output array is in the point's block iff each coordinate is in the block's range on its axis. -/
theorem mem_blk (t : Fin cfg3.N) (i : S64x10.Idx) :
    i ∈ ((cfg3.win 3).blk t).view.set ↔ ∀ a : Fin 2, win3_3.index t a * S64x10.size a ≤ (i a).val ∧ (i a).val < win3_3.index t a * S64x10.size a + S64x10.size a := by
  show i ∈ ((View.whole main_v67).slice (win3_3.rect t)).set ↔ _
  rw [View.set_slice_whole, Rect.mem_set_unit]
  exact Iff.rfl

/-- The one block is the whole output. -/
theorem cover (i : S64x10.Idx) : ∃ t : Fin cfg3.N, (cfg3.win 3).flush t = true ∧ i ∈ ((cfg3.win 3).blk t).view.set := by
  have hi0 : (i 0).val < 64 := (i 0).isLt
  have hi1 : (i 1).val < 10 := (i 1).isLt
  obtain ⟨t, -⟩ := pt
  obtain ⟨e0, e1, e2, e3, e4, e5, e6⟩ := idx_facts t
  refine ⟨t, flush3_3 t, ?_⟩
  rw [mem_blk]
  intro a
  match a with
  | ⟨0, _⟩ => show win3_3.index t (0 : Fin 2) * 64 ≤ (i 0).val ∧ (i 0).val < win3_3.index t (0 : Fin 2) * 64 + 64; omega
  | ⟨1, _⟩ => show win3_3.index t (1 : Fin 2) * 10 ≤ (i 1).val ∧ (i 1).val < win3_3.index t (1 : Fin 2) * 10 + 10; omega

/-- THE OUTPUT ARRAY after the region: the head of the arrays the region found at entry. -/
theorem value (c : Dev nD) : (dat3 (F := Ideal) V c).arrAt 3 cfg3.N
    = head (n := 64) (d := 128) (c := 10) (V c main_v66) (V c main_arg6) (V c main_arg7) :=
  (dat3 (F := Ideal) V c).arrAt_eq_of_cover 3 _ (fun t _ => flushed_eq V c t) cover

end Cert.KernelIdeal.Region3

end
-- ==== Proof.RefStages.lean ====
/-
  The reference program's stages, read as the network's whole-array functions. Each of its three layers spells
  (agg · W_rel + b along the rows) + x · W_root with two dot_generals, the bias broadcast twice and two adds: the
  layer of the aggregation stage, the previous nodes and that layer's slices of the parameters. Its last stage spells
  the head: the logits of the pooled graphs, then the logarithm of the softmax along their rows.
-/
import proofs.«133446_j51754355916837_1_alg».proof.Proof.Gen.ReferenceIdeal.Read
import proofs.«133446_j51754355916837_1_alg».proof.Proof.LayerSpec
import proofs.«133446_j51754355916837_1_alg».proof.Proof.HeadSpec

set_option maxRecDepth 16384

noncomputable section

namespace Cert.ReferenceIdeal.Stages

open Cert.ReferenceIdeal Cert.ReferenceIdeal.Gen Cert.ReferenceIdeal.Read
open Idealize.ShloMosaic Idealize.ShloMosaic.ValueIdx
open Cert.LayerSpec (layer)
open Cert.HeadSpec (head)
open Cert.Gcn (prod)
open Cert.LibRowBias (rowBias)
open Cert.LibLogSoftmax (logSoftmax)

/-- This layer's output stage is the layer of the aggregation stage, the previous nodes, and this layer's slices of
    the weights and the bias. -/
theorem v25_eq (x0 : FVec Ideal S100000x128 .f32) (x1 : IVec S2x1600000 32) (x3 x4 : FVec Ideal S3x128x128 .f32) (x5 : FVec Ideal S3x128 .f32) :
    val_main_v25 (F := Ideal) x0 x1 x3 x4 x5
      = layer (n := 100000) (d := 128) (e := 128) (val_main_v13 (F := Ideal) x0 x1) x0
          (val_main_v15 (F := Ideal) x3) (val_main_v23 (F := Ideal) x4) (val_main_v18 (F := Ideal) x5) := by
  unfold val_main_v25 val_main_v21 val_main_v16 val_main_v20 val_main_v19 val_main_v24
  exact Cert.LayerSpec.host_layer dot_S100000x128_S128x128_S100000x128_1_0_0_1_n_n.wf none _ _ _ _ _ bcast_S128_S1x128_1 bcast_S1x128_S100000x128_0_1

/-- This layer's output stage is the layer of the aggregation stage, the previous nodes, and this layer's slices of
    the weights and the bias. -/
theorem v47_eq (x0 : FVec Ideal S100000x128 .f32) (x1 : IVec S2x1600000 32) (x3 x4 : FVec Ideal S3x128x128 .f32) (x5 : FVec Ideal S3x128 .f32) :
    val_main_v47 (F := Ideal) x0 x1 x3 x4 x5
      = layer (n := 100000) (d := 128) (e := 128) (val_main_v35 (F := Ideal) x0 x1 x3 x4 x5) (val_main_v25 (F := Ideal) x0 x1 x3 x4 x5)
          (val_main_v37 (F := Ideal) x3) (val_main_v45 (F := Ideal) x4) (val_main_v40 (F := Ideal) x5) := by
  unfold val_main_v47 val_main_v43 val_main_v38 val_main_v42 val_main_v41 val_main_v46
  exact Cert.LayerSpec.host_layer dot_S100000x128_S128x128_S100000x128_1_0_0_1_n_n.wf none _ _ _ _ _ bcast_S128_S1x128_1 bcast_S1x128_S100000x128_0_1

/-- This layer's output stage is the layer of the aggregation stage, the previous nodes, and this layer's slices of
    the weights and the bias. -/
theorem v69_eq (x0 : FVec Ideal S100000x128 .f32) (x1 : IVec S2x1600000 32) (x3 x4 : FVec Ideal S3x128x128 .f32) (x5 : FVec Ideal S3x128 .f32) :
    val_main_v69 (F := Ideal) x0 x1 x3 x4 x5
      = layer (n := 100000) (d := 128) (e := 128) (val_main_v57 (F := Ideal) x0 x1 x3 x4 x5) (val_main_v47 (F := Ideal) x0 x1 x3 x4 x5)
          (val_main_v59 (F := Ideal) x3) (val_main_v67 (F := Ideal) x4) (val_main_v62 (F := Ideal) x5) := by
  unfold val_main_v69 val_main_v65 val_main_v60 val_main_v64 val_main_v63 val_main_v68
  exact Cert.LayerSpec.host_layer dot_S100000x128_S128x128_S100000x128_1_0_0_1_n_n.wf none _ _ _ _ _ bcast_S128_S1x128_1 bcast_S1x128_S100000x128_0_1

/-- The result stage is the head of the pooled stage and the head's parameters. -/
theorem v86_eq (x0 : FVec Ideal S100000x128 .f32) (x1 : IVec S2x1600000 32) (x2 : IVec S100000 32) (x3 x4 : FVec Ideal S3x128x128 .f32)
    (x5 : FVec Ideal S3x128 .f32) (x6 : FVec Ideal S128x10 .f32) (x7 : FVec Ideal S10 .f32) :
    val_main_v86 (F := Ideal) x0 x1 x2 x3 x4 x5 x6 x7
      = head (n := 64) (d := 128) (c := 10) (val_main_v81 (F := Ideal) x0 x1 x2 x3 x4 x5) x6 x7 := by
  have hZ : val_main_v85 (F := Ideal) x0 x1 x2 x3 x4 x5 x6 x7
      = rowBias (n := 64) (f := 10) (prod (M := 64) (K := 128) (N := 10) (val_main_v81 (F := Ideal) x0 x1 x2 x3 x4 x5) x6) x7 := by
    unfold val_main_v85 val_main_v82 val_main_v84 val_main_v83
    exact Cert.HeadSpec.host_logits dot_S64x128_S128x10_S64x10_1_0_0_1_n_n.wf none _ x6 x7 bcast_S10_S1x10_1 bcast_S1x10_S64x10_0_1
  unfold val_main_v86 val_main_call0_v10 val_main_call0_v9 val_main_call0_v8 val_main_call0_v7 val_main_call0_cst_1 val_main_call0_v6
    val_main_call0_v5 val_main_call0_v4 val_main_call0_v3 val_main_call0_v2 val_main_call0_v1 val_main_call0_cst_0 val_main_call0_v0 val_main_call0_cst
  refine (Cert.LibLogSoftmax.host_logSoftmax (n := 64) (c := 10) (val_main_v85 (F := Ideal) x0 x1 x2 x3 x4 x5 x6 x7)
    reducesTo_S64x10_S64_d1 (by decide) h_S_ bcast_S_S64 bcast_S64_S64x1_0 bcast_S64x1_S64x10_0_1).trans ?_
  exact congrArg (logSoftmax (n := 64) (c := 10)) hZ

end Cert.ReferenceIdeal.Stages

end
-- ==== Proof.Walk.lean ====
/-
  The idealized kernel's result as the reference's result stage of the launch arguments. The contents of the buffers at
  the eight boundaries of @main are followed from the launch memory: across a stretch of host operations a buffer holds
  the operations' term of what the stretch found (the same operations the reference applies, so the same stage function
  of the arguments), or what it held if no operation writes it; across a region the region's output holds the layer (or,
  for the last region, the head) of what the region found, and every buffer outside the region's arrays what it held.
  Stage by stage the kernel's buffers are the reference's stages: indices, aggregations and parameter slices by the
  shared host operations, each layer's output by the layer's two spellings, the result by the head's two spellings.
-/
import proofs.«133446_j51754355916837_1_alg».proof.Proof.Gen.KernelIdeal.Frame
import proofs.«133446_j51754355916837_1_alg».proof.Proof.Gen.ReferenceIdeal.Read
import proofs.«133446_j51754355916837_1_alg».proof.Proof.Region0
import proofs.«133446_j51754355916837_1_alg».proof.Proof.Region1
import proofs.«133446_j51754355916837_1_alg».proof.Proof.Region2
import proofs.«133446_j51754355916837_1_alg».proof.Proof.Region3
import proofs.«133446_j51754355916837_1_alg».proof.Proof.RefStages

set_option maxRecDepth 16384

noncomputable section

namespace Cert.KernelIdeal.Walk

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem at1_arg0 : W1 m ρ c (Proc.devRef .tc main_arg0) = (m ((c : Thread nD τ).loc main_arg0)) := by
  show StableHlo.after hostOps0 (W0 m ρ c) (Proc.devRef .tc main_arg0) = _
  after_results_simp <;> rfl

theorem at1_arg2 : W1 m ρ c (Proc.devRef .tc main_arg2) = (m ((c : Thread nD τ).loc main_arg2)) := by
  show StableHlo.after hostOps0 (W0 m ρ c) (Proc.devRef .tc main_arg2) = _
  after_results_simp <;> rfl

theorem at1_arg3 : W1 m ρ c (Proc.devRef .tc main_arg3) = (m ((c : Thread nD τ).loc main_arg3)) := by
  show StableHlo.after hostOps0 (W0 m ρ c) (Proc.devRef .tc main_arg3) = _
  after_results_simp <;> rfl

theorem at1_arg4 : W1 m ρ c (Proc.devRef .tc main_arg4) = (m ((c : Thread nD τ).loc main_arg4)) := by
  show StableHlo.after hostOps0 (W0 m ρ c) (Proc.devRef .tc main_arg4) = _
  after_results_simp <;> rfl

theorem at1_arg5 : W1 m ρ c (Proc.devRef .tc main_arg5) = (m ((c : Thread nD τ).loc main_arg5)) := by
  show StableHlo.after hostOps0 (W0 m ρ c) (Proc.devRef .tc main_arg5) = _
  after_results_simp <;> rfl

theorem at1_arg6 : W1 m ρ c (Proc.devRef .tc main_arg6) = (m ((c : Thread nD τ).loc main_arg6)) := by
  show StableHlo.after hostOps0 (W0 m ρ c) (Proc.devRef .tc main_arg6) = _
  after_results_simp <;> rfl

theorem at1_arg7 : W1 m ρ c (Proc.devRef .tc main_arg7) = (m ((c : Thread nD τ).loc main_arg7)) := by
  show StableHlo.after hostOps0 (W0 m ρ c) (Proc.devRef .tc main_arg7) = _
  after_results_simp <;> rfl

theorem at1_v1 : W1 m ρ c (Proc.devRef .tc main_v1) = Cert.ReferenceIdeal.Read.val_main_v1 (F := Ideal) (m ((c : Thread nD τ).loc main_arg1)) := by
  show StableHlo.after hostOps0 (W0 m ρ c) (Proc.devRef .tc main_v1) = _
  after_results_simp <;> rfl

theorem at1_v3 : W1 m ρ c (Proc.devRef .tc main_v3) = Cert.ReferenceIdeal.Read.val_main_v3 (F := Ideal) (m ((c : Thread nD τ).loc main_arg1)) := by
  show StableHlo.after hostOps0 (W0 m ρ c) (Proc.devRef .tc main_v3) = _
  after_results_simp <;> rfl

theorem at1_v13 : W1 m ρ c (Proc.devRef .tc main_v13) = Cert.ReferenceIdeal.Read.val_main_v13 (F := Ideal) (m ((c : Thread nD τ).loc main_arg0)) (m ((c : Thread nD τ).loc main_arg1)) := by
  show StableHlo.after hostOps0 (W0 m ρ c) (Proc.devRef .tc main_v13) = _
  after_results_simp <;> rfl

theorem at1_v15 : W1 m ρ c (Proc.devRef .tc main_v15) = Cert.ReferenceIdeal.Read.val_main_v15 (F := Ideal) (m ((c : Thread nD τ).loc main_arg3)) := by
  show StableHlo.after hostOps0 (W0 m ρ c) (Proc.devRef .tc main_v15) = _
  after_results_simp <;> rfl

theorem at1_v17 : W1 m ρ c (Proc.devRef .tc main_v17) = Cert.ReferenceIdeal.Read.val_main_v23 (F := Ideal) (m ((c : Thread nD τ).loc main_arg4)) := by
  show StableHlo.after hostOps0 (W0 m ρ c) (Proc.devRef .tc main_v17) = _
  after_results_simp <;> rfl

theorem at1_v19 : W1 m ρ c (Proc.devRef .tc main_v19) = Cert.ReferenceIdeal.Read.val_main_v18 (F := Ideal) (m ((c : Thread nD τ).loc main_arg5)) := by
  show StableHlo.after hostOps0 (W0 m ρ c) (Proc.devRef .tc main_v19) = _
  after_results_simp <;> rfl

/-- Region 0's output: the layer of what the region found, which are the reference's stages of the launch arguments. -/
theorem at2_v20 : W2 m ρ c (Proc.devRef .tc main_v20) = Cert.ReferenceIdeal.Read.val_main_v25 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W2_arr m ρ c 5).trans ((Cert.KernelIdeal.Region0.value (V1 m ρ) c).trans ?_)
  show Cert.LayerSpec.layer (n := 100000) (d := 128) (e := 128) (W1 m ρ c (Proc.devRef .tc main_v13)) (W1 m ρ c (Proc.devRef .tc main_arg0))
    (W1 m ρ c (Proc.devRef .tc main_v15)) (W1 m ρ c (Proc.devRef .tc main_v17)) (W1 m ρ c (Proc.devRef .tc main_v19)) = _
  rw [at1_v13 m ρ c, at1_arg0 m ρ c, at1_v15 m ρ c, at1_v17 m ρ c, at1_v19 m ρ c]
  exact (Cert.ReferenceIdeal.Stages.v25_eq _ _ _ _ _).symm

theorem at2_v1 : W2 m ρ c (Proc.devRef .tc main_v1) = Cert.ReferenceIdeal.Read.val_main_v1 (F := Ideal) (m ((c : Thread nD τ).loc main_arg1)) :=
  (W2_of_ne m ρ c main_v1 (by decide)).trans (at1_v1 m ρ c)

theorem at2_v3 : W2 m ρ c (Proc.devRef .tc main_v3) = Cert.ReferenceIdeal.Read.val_main_v3 (F := Ideal) (m ((c : Thread nD τ).loc main_arg1)) :=
  (W2_of_ne m ρ c main_v3 (by decide)).trans (at1_v3 m ρ c)

theorem at2_arg2 : W2 m ρ c (Proc.devRef .tc main_arg2) = (m ((c : Thread nD τ).loc main_arg2)) :=
  (W2_of_ne m ρ c main_arg2 (by decide)).trans (at1_arg2 m ρ c)

theorem at2_arg3 : W2 m ρ c (Proc.devRef .tc main_arg3) = (m ((c : Thread nD τ).loc main_arg3)) :=
  (W2_of_ne m ρ c main_arg3 (by decide)).trans (at1_arg3 m ρ c)

theorem at2_arg4 : W2 m ρ c (Proc.devRef .tc main_arg4) = (m ((c : Thread nD τ).loc main_arg4)) :=
  (W2_of_ne m ρ c main_arg4 (by decide)).trans (at1_arg4 m ρ c)

theorem at2_arg5 : W2 m ρ c (Proc.devRef .tc main_arg5) = (m ((c : Thread nD τ).loc main_arg5)) :=
  (W2_of_ne m ρ c main_arg5 (by decide)).trans (at1_arg5 m ρ c)

theorem at2_arg6 : W2 m ρ c (Proc.devRef .tc main_arg6) = (m ((c : Thread nD τ).loc main_arg6)) :=
  (W2_of_ne m ρ c main_arg6 (by decide)).trans (at1_arg6 m ρ c)

theorem at2_arg7 : W2 m ρ c (Proc.devRef .tc main_arg7) = (m ((c : Thread nD τ).loc main_arg7)) :=
  (W2_of_ne m ρ c main_arg7 (by decide)).trans (at1_arg7 m ρ c)

theorem at3_v30 : W3 m ρ c (Proc.devRef .tc main_v30) = Cert.ReferenceIdeal.Read.val_main_v35 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_v30) = _
  after_results_simp
  rw [at2_v1 m ρ c, at2_v3 m ρ c, at2_v20 m ρ c]
  rfl

theorem at3_v32 : W3 m ρ c (Proc.devRef .tc main_v32) = Cert.ReferenceIdeal.Read.val_main_v37 (F := Ideal) (m ((c : Thread nD τ).loc main_arg3)) := by
  show StableHlo.after hostOps1 (W2 m ρ c) (Proc.devRef .tc main_v32) = _
  after_results_simp
  rw [at2_arg3 m ρ c]
  rfl

theorem at3_v34 : W3 m ρ c (Proc.devRef .tc main_v34) = Cert.ReferenceIdeal.Read.val_main_v45 (F := Ideal) (m ((c : Thread nD τ).loc main_arg4)) := by
  show StableHlo.after hostOps1 (W2 m ρ c) (Proc.devRef .tc main_v34) = _
  after_results_simp
  rw [at2_arg4 m ρ c]
  rfl

theorem at3_v36 : W3 m ρ c (Proc.devRef .tc main_v36) = Cert.ReferenceIdeal.Read.val_main_v40 (F := Ideal) (m ((c : Thread nD τ).loc main_arg5)) := by
  show StableHlo.after hostOps1 (W2 m ρ c) (Proc.devRef .tc main_v36) = _
  after_results_simp
  rw [at2_arg5 m ρ c]
  rfl

theorem at3_v20 : W3 m ρ c (Proc.devRef .tc main_v20) = Cert.ReferenceIdeal.Read.val_main_v25 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_v20) = _
  after_results_simp <;> exact at2_v20 m ρ c

theorem at3_v1 : W3 m ρ c (Proc.devRef .tc main_v1) = Cert.ReferenceIdeal.Read.val_main_v1 (F := Ideal) (m ((c : Thread nD τ).loc main_arg1)) := by
  show StableHlo.after hostOps1 (W2 m ρ c) (Proc.devRef .tc main_v1) = _
  after_results_simp <;> exact at2_v1 m ρ c

theorem at3_v3 : W3 m ρ c (Proc.devRef .tc main_v3) = Cert.ReferenceIdeal.Read.val_main_v3 (F := Ideal) (m ((c : Thread nD τ).loc main_arg1)) := by
  show StableHlo.after hostOps1 (W2 m ρ c) (Proc.devRef .tc main_v3) = _
  after_results_simp <;> exact at2_v3 m ρ c

theorem at3_arg2 : W3 m ρ c (Proc.devRef .tc main_arg2) = (m ((c : Thread nD τ).loc main_arg2)) := by
  show StableHlo.after hostOps1 (W2 m ρ c) (Proc.devRef .tc main_arg2) = _
  after_results_simp <;> exact at2_arg2 m ρ c

theorem at3_arg3 : W3 m ρ c (Proc.devRef .tc main_arg3) = (m ((c : Thread nD τ).loc main_arg3)) := by
  show StableHlo.after hostOps1 (W2 m ρ c) (Proc.devRef .tc main_arg3) = _
  after_results_simp <;> exact at2_arg3 m ρ c

theorem at3_arg4 : W3 m ρ c (Proc.devRef .tc main_arg4) = (m ((c : Thread nD τ).loc main_arg4)) := by
  show StableHlo.after hostOps1 (W2 m ρ c) (Proc.devRef .tc main_arg4) = _
  after_results_simp <;> exact at2_arg4 m ρ c

theorem at3_arg5 : W3 m ρ c (Proc.devRef .tc main_arg5) = (m ((c : Thread nD τ).loc main_arg5)) := by
  show StableHlo.after hostOps1 (W2 m ρ c) (Proc.devRef .tc main_arg5) = _
  after_results_simp <;> exact at2_arg5 m ρ c

theorem at3_arg6 : W3 m ρ c (Proc.devRef .tc main_arg6) = (m ((c : Thread nD τ).loc main_arg6)) := by
  show StableHlo.after hostOps1 (W2 m ρ c) (Proc.devRef .tc main_arg6) = _
  after_results_simp <;> exact at2_arg6 m ρ c

theorem at3_arg7 : W3 m ρ c (Proc.devRef .tc main_arg7) = (m ((c : Thread nD τ).loc main_arg7)) := by
  show StableHlo.after hostOps1 (W2 m ρ c) (Proc.devRef .tc main_arg7) = _
  after_results_simp <;> exact at2_arg7 m ρ c

/-- Region 1's output: the layer of what the region found, which are the reference's stages of the launch arguments. -/
theorem at4_v37 : W4 m ρ c (Proc.devRef .tc main_v37) = Cert.ReferenceIdeal.Read.val_main_v47 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W4_arr m ρ c 5).trans ((Cert.KernelIdeal.Region1.value (V3 m ρ) c).trans ?_)
  show Cert.LayerSpec.layer (n := 100000) (d := 128) (e := 128) (W3 m ρ c (Proc.devRef .tc main_v30)) (W3 m ρ c (Proc.devRef .tc main_v20))
    (W3 m ρ c (Proc.devRef .tc main_v32)) (W3 m ρ c (Proc.devRef .tc main_v34)) (W3 m ρ c (Proc.devRef .tc main_v36)) = _
  rw [at3_v30 m ρ c, at3_v20 m ρ c, at3_v32 m ρ c, at3_v34 m ρ c, at3_v36 m ρ c]
  exact (Cert.ReferenceIdeal.Stages.v47_eq _ _ _ _ _).symm

theorem at4_v1 : W4 m ρ c (Proc.devRef .tc main_v1) = Cert.ReferenceIdeal.Read.val_main_v1 (F := Ideal) (m ((c : Thread nD τ).loc main_arg1)) :=
  (W4_of_ne m ρ c main_v1 (by decide)).trans (at3_v1 m ρ c)

theorem at4_v3 : W4 m ρ c (Proc.devRef .tc main_v3) = Cert.ReferenceIdeal.Read.val_main_v3 (F := Ideal) (m ((c : Thread nD τ).loc main_arg1)) :=
  (W4_of_ne m ρ c main_v3 (by decide)).trans (at3_v3 m ρ c)

theorem at4_arg2 : W4 m ρ c (Proc.devRef .tc main_arg2) = (m ((c : Thread nD τ).loc main_arg2)) :=
  (W4_of_ne m ρ c main_arg2 (by decide)).trans (at3_arg2 m ρ c)

theorem at4_arg3 : W4 m ρ c (Proc.devRef .tc main_arg3) = (m ((c : Thread nD τ).loc main_arg3)) :=
  (W4_of_ne m ρ c main_arg3 (by decide)).trans (at3_arg3 m ρ c)

theorem at4_arg4 : W4 m ρ c (Proc.devRef .tc main_arg4) = (m ((c : Thread nD τ).loc main_arg4)) :=
  (W4_of_ne m ρ c main_arg4 (by decide)).trans (at3_arg4 m ρ c)

theorem at4_arg5 : W4 m ρ c (Proc.devRef .tc main_arg5) = (m ((c : Thread nD τ).loc main_arg5)) :=
  (W4_of_ne m ρ c main_arg5 (by decide)).trans (at3_arg5 m ρ c)

theorem at4_arg6 : W4 m ρ c (Proc.devRef .tc main_arg6) = (m ((c : Thread nD τ).loc main_arg6)) :=
  (W4_of_ne m ρ c main_arg6 (by decide)).trans (at3_arg6 m ρ c)

theorem at4_arg7 : W4 m ρ c (Proc.devRef .tc main_arg7) = (m ((c : Thread nD τ).loc main_arg7)) :=
  (W4_of_ne m ρ c main_arg7 (by decide)).trans (at3_arg7 m ρ c)

theorem at5_v47 : W5 m ρ c (Proc.devRef .tc main_v47) = Cert.ReferenceIdeal.Read.val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps2 (W4 m ρ c) (Proc.devRef .tc main_v47) = _
  after_results_simp
  rw [at4_v1 m ρ c, at4_v3 m ρ c, at4_v37 m ρ c]
  rfl

theorem at5_v49 : W5 m ρ c (Proc.devRef .tc main_v49) = Cert.ReferenceIdeal.Read.val_main_v59 (F := Ideal) (m ((c : Thread nD τ).loc main_arg3)) := by
  show StableHlo.after hostOps2 (W4 m ρ c) (Proc.devRef .tc main_v49) = _
  after_results_simp
  rw [at4_arg3 m ρ c]
  rfl

theorem at5_v51 : W5 m ρ c (Proc.devRef .tc main_v51) = Cert.ReferenceIdeal.Read.val_main_v67 (F := Ideal) (m ((c : Thread nD τ).loc main_arg4)) := by
  show StableHlo.after hostOps2 (W4 m ρ c) (Proc.devRef .tc main_v51) = _
  after_results_simp
  rw [at4_arg4 m ρ c]
  rfl

theorem at5_v53 : W5 m ρ c (Proc.devRef .tc main_v53) = Cert.ReferenceIdeal.Read.val_main_v62 (F := Ideal) (m ((c : Thread nD τ).loc main_arg5)) := by
  show StableHlo.after hostOps2 (W4 m ρ c) (Proc.devRef .tc main_v53) = _
  after_results_simp
  rw [at4_arg5 m ρ c]
  rfl

theorem at5_v37 : W5 m ρ c (Proc.devRef .tc main_v37) = Cert.ReferenceIdeal.Read.val_main_v47 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps2 (W4 m ρ c) (Proc.devRef .tc main_v37) = _
  after_results_simp <;> exact at4_v37 m ρ c

theorem at5_arg2 : W5 m ρ c (Proc.devRef .tc main_arg2) = (m ((c : Thread nD τ).loc main_arg2)) := by
  show StableHlo.after hostOps2 (W4 m ρ c) (Proc.devRef .tc main_arg2) = _
  after_results_simp <;> exact at4_arg2 m ρ c

theorem at5_arg6 : W5 m ρ c (Proc.devRef .tc main_arg6) = (m ((c : Thread nD τ).loc main_arg6)) := by
  show StableHlo.after hostOps2 (W4 m ρ c) (Proc.devRef .tc main_arg6) = _
  after_results_simp <;> exact at4_arg6 m ρ c

theorem at5_arg7 : W5 m ρ c (Proc.devRef .tc main_arg7) = (m ((c : Thread nD τ).loc main_arg7)) := by
  show StableHlo.after hostOps2 (W4 m ρ c) (Proc.devRef .tc main_arg7) = _
  after_results_simp <;> exact at4_arg7 m ρ c

/-- Region 2's output: the layer of what the region found, which are the reference's stages of the launch arguments. -/
theorem at6_v54 : W6 m ρ c (Proc.devRef .tc main_v54) = Cert.ReferenceIdeal.Read.val_main_v69 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 5).trans ((Cert.KernelIdeal.Region2.value (V5 m ρ) c).trans ?_)
  show Cert.LayerSpec.layer (n := 100000) (d := 128) (e := 128) (W5 m ρ c (Proc.devRef .tc main_v47)) (W5 m ρ c (Proc.devRef .tc main_v37))
    (W5 m ρ c (Proc.devRef .tc main_v49)) (W5 m ρ c (Proc.devRef .tc main_v51)) (W5 m ρ c (Proc.devRef .tc main_v53)) = _
  rw [at5_v47 m ρ c, at5_v37 m ρ c, at5_v49 m ρ c, at5_v51 m ρ c, at5_v53 m ρ c]
  exact (Cert.ReferenceIdeal.Stages.v69_eq _ _ _ _ _).symm

theorem at6_arg2 : W6 m ρ c (Proc.devRef .tc main_arg2) = (m ((c : Thread nD τ).loc main_arg2)) :=
  (W6_of_ne m ρ c main_arg2 (by decide)).trans (at5_arg2 m ρ c)

theorem at6_arg6 : W6 m ρ c (Proc.devRef .tc main_arg6) = (m ((c : Thread nD τ).loc main_arg6)) :=
  (W6_of_ne m ρ c main_arg6 (by decide)).trans (at5_arg6 m ρ c)

theorem at6_arg7 : W6 m ρ c (Proc.devRef .tc main_arg7) = (m ((c : Thread nD τ).loc main_arg7)) :=
  (W6_of_ne m ρ c main_arg7 (by decide)).trans (at5_arg7 m ρ c)

theorem at7_v66 : W7 m ρ c (Proc.devRef .tc main_v66) = Cert.ReferenceIdeal.Read.val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps3 (W6 m ρ c) (Proc.devRef .tc main_v66) = _
  after_results_simp
  rw [at6_arg2 m ρ c, at6_v54 m ρ c]
  rfl

theorem at7_arg6 : W7 m ρ c (Proc.devRef .tc main_arg6) = (m ((c : Thread nD τ).loc main_arg6)) := by
  show StableHlo.after hostOps3 (W6 m ρ c) (Proc.devRef .tc main_arg6) = _
  after_results_simp <;> exact at6_arg6 m ρ c

theorem at7_arg7 : W7 m ρ c (Proc.devRef .tc main_arg7) = (m ((c : Thread nD τ).loc main_arg7)) := by
  show StableHlo.after hostOps3 (W6 m ρ c) (Proc.devRef .tc main_arg7) = _
  after_results_simp <;> exact at6_arg7 m ρ c

/-- THE RESULT: region 3's output is the head of the pooled stage, which is the reference's result stage of the launch
    arguments. -/
theorem at8_v67 : W8 m ρ c (Proc.devRef .tc main_v67) = Cert.ReferenceIdeal.Read.val_main_v86 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 3).trans ((Cert.KernelIdeal.Region3.value (V7 m ρ) c).trans ?_)
  show Cert.HeadSpec.head (n := 64) (d := 128) (c := 10) (W7 m ρ c (Proc.devRef .tc main_v66)) (W7 m ρ c (Proc.devRef .tc main_arg6))
    (W7 m ρ c (Proc.devRef .tc main_arg7)) = _
  rw [at7_v66 m ρ c, at7_arg6 m ρ c, at7_arg7 m ρ c]
  exact (Cert.ReferenceIdeal.Stages.v86_eq _ _ _ _ _ _ _ _).symm

end Cert.KernelIdeal.Walk

end
-- ==== Proof.lean ====
/-
  A three-layer graph convolution with mean pooling and a log-softmax head, against its plain reference, over the
  extended reals. Each layer sums the nodes' features along the edges into agg (a gather and a scatter-add on the host,
  the same operations in both programs) and updates x ← (agg · W_rel + b along the rows) + x · W_root; the graphs' nodes
  are then averaged (a scatter-add and a division on the host, again shared), and the result is the logarithm of the
  softmax along the rows of pooled · W_fc + b_fc.

  The kernel computes each layer in a pipelined region over ten blocks of 10000 rows, with operands cast to bf16 (the
  identity on extended reals) and products into zero accumulators, and the head in a fourth region that takes the row
  maximum and the row sum with lane reductions. The reference computes the layers with dot_general on whole arrays and
  the head with a library log-softmax (a reduce by maximum, a reduce by sum). The two agree for every input: a row of a layer reads only that row of agg and of x,
  so the ten blocks are the blocks of the whole layer; a product into a zero accumulator and dot_general are the same
  sum over the contracted axis; and the two spellings of the head read the same entries in the same order (the
  reference's extra maximum against -∞ changes nothing, -∞ being the least extended real). No law of arithmetic that
  could fail at an infinity is used, so the precondition is never opened.

  The kernel's idealization rewrote no operation, so it is the kernel's own text read over the extended reals.
-/
import proofs.«133446_j51754355916837_1_alg».proof.Defs
import proofs.«133446_j51754355916837_1_alg».proof.Proof.Gen.Kernel
import proofs.«133446_j51754355916837_1_alg».proof.Proof.Gen.Kernel.Skeleton
import proofs.«133446_j51754355916837_1_alg».proof.Proof.Gen.Kernel.Launch
import proofs.«133446_j51754355916837_1_alg».proof.Proof.Gen.Kernel.Points
import proofs.«133446_j51754355916837_1_alg».proof.Proof.Gen.Kernel.Frame
import proofs.«133446_j51754355916837_1_alg».proof.Proof.Gen.KernelIdeal
import proofs.«133446_j51754355916837_1_alg».proof.Proof.Gen.KernelIdeal.Skeleton
import proofs.«133446_j51754355916837_1_alg».proof.Proof.Gen.KernelIdeal.Launch
import proofs.«133446_j51754355916837_1_alg».proof.Proof.Gen.KernelIdeal.Points
import proofs.«133446_j51754355916837_1_alg».proof.Proof.Gen.KernelIdeal.Frame
import proofs.«133446_j51754355916837_1_alg».proof.Proof.Gen.ReferenceIdeal
import proofs.«133446_j51754355916837_1_alg».proof.Proof.Gen.ReferenceIdeal.Run
import proofs.«133446_j51754355916837_1_alg».proof.Proof.Gen.ReferenceIdeal.Read
import proofs.«133446_j51754355916837_1_alg».proof.Proof.Gen.Pre_finite_inputs
import proofs.«133446_j51754355916837_1_alg».proof.Proof.KernelRun
import proofs.«133446_j51754355916837_1_alg».proof.Proof.Walk
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the reference's result stage of those arguments:
    the kernel because its buffers are, boundary by boundary, the reference's stages; the reference by its own run. -/
theorem algebraic : Cert.algebraic_KernelIdeal_ReferenceIdeal := by
  intro m ρ m' ρ' _ hagree
  refine ⟨fun c => Cert.ReferenceIdeal.Read.val_main_v86 (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Walk.at8_v67 m ρ c), (h c).2⟩)
      (Cert.KernelIdeal.RunValue.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v86_eq, (hagree c).1, (hagree c).2.1, (hagree c).2.2.1, (hagree c).2.2.2.1, (hagree c).2.2.2.2.1, (hagree c).2.2.2.2.2.1, (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
